-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S2048x1024 : Shape := ⟨2, ![2048, 1024]⟩
abbrev S8192x1024 : Shape := ⟨2, ![8192, 1024]⟩
abbrev S8192x2048 : Shape := ⟨2, ![8192, 2048]⟩
abbrev S8192 : Shape := ⟨1, ![8192]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg4 : FVec F S8192x1024 .f32) (main_arg5 : FVec F S8192x2048 .f32) (main_arg6 : FVec F S8192 .f32) (main_arg7 : FVec F S8192 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_v33

def fn {F : FTy → Type} [FloatOps F] (main_arg0 : FVec F S512x1024 .f32) (main_arg1 : FVec F S512x1024 .f32) (main_arg2 : FVec F S2048x1024 .f32) (main_arg3 : FVec F S2048x1024 .f32) (main_arg4 : FVec F S8192x1024 .f32) (main_arg5 : FVec F S8192x2048 .f32) (main_arg6 : FVec F S8192 .f32) (main_arg7 : FVec F S8192 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_v13 main_v16
-- ==== Kernel.lean ====
abbrev S512x1024 : Shape := ⟨2, ![512, 1024]⟩
abbrev S2048x1024 : Shape := ⟨2, ![2048, 1024]⟩
abbrev S8192x1024 : Shape := ⟨2, ![8192, 1024]⟩
abbrev S8192x2048 : Shape := ⟨2, ![8192, 2048]⟩
abbrev S8192 : Shape := ⟨1, ![8192]⟩
abbrev S1x8192 : Shape := ⟨2, ![1, 8192]⟩
abbrev S1024x8192 : Shape := ⟨2, ![1024, 8192]⟩
abbrev S2048x8192 : Shape := ⟨2, ![2048, 8192]⟩
abbrev S1024x512 : Shape := ⟨2, ![1024, 512]⟩
abbrev S1024x2048 : Shape := ⟨2, ![1024, 2048]⟩
abbrev S1x2048 : Shape := ⟨2, ![1, 2048]⟩
abbrev S512x2048 : Shape := ⟨2, ![512, 2048]⟩
abbrev S2048x512 : Shape := ⟨2, ![2048, 512]⟩
abbrev S128x1024 : Shape := ⟨2, ![128, 1024]⟩
abbrev S128x8192 : Shape := ⟨2, ![128, 8192]⟩
abbrev S128x512 : Shape := ⟨2, ![128, 512]⟩
abbrev S128x2048 : Shape := ⟨2, ![128, 2048]⟩
abbrev S128 : Shape := ⟨1, ![128]⟩
abbrev S128x1 : Shape := ⟨2, ![128, 1]⟩

abbrev nBuf : Space → Nat
  | .hbm => 20
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2048x1024, .f32⟩
  | .hbm, ⟨3, _⟩ => ⟨S2048x1024, .f32⟩
  | .hbm, ⟨4, _⟩ => ⟨S8192x1024, .f32⟩
  | .hbm, ⟨5, _⟩ => ⟨S8192x2048, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S1x8192, .f32⟩
  | .hbm, ⟨10, _⟩ => ⟨S2048x1024, .bf16⟩
  | .hbm, ⟨11, _⟩ => ⟨S1024x8192, .f32⟩
  | .hbm, ⟨12, _⟩ => ⟨S1024x8192, .bf16⟩
  | .hbm, ⟨13, _⟩ => ⟨S2048x8192, .f32⟩
  | .hbm, ⟨14, _⟩ => ⟨S2048x8192, .bf16⟩
  | .hbm, ⟨15, _⟩ => ⟨S1024x8192, .bf16⟩
  | .hbm, ⟨16, _⟩ => ⟨S1024x8192, .bf16⟩
  | .hbm, ⟨17, _⟩ => ⟨S1024x512, .f32⟩
  | .hbm, ⟨18, _⟩ => ⟨S2048x8192, .f32⟩
  | .hbm, ⟨19, _⟩ => ⟨S2048x512, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S128x1024, .f32⟩
  | .local _ .vmem, ⟨9, _⟩ => ⟨S128x1024, .f32⟩
  | .local _ .vmem, ⟨10, _⟩ => ⟨S128x8192, .f32⟩
  | .local _ .vmem, ⟨11, _⟩ => ⟨S128x8192, .f32⟩
  | .local _ .vmem, ⟨12, _⟩ => ⟨S1024x8192, .bf16⟩
  | .local _ .vmem, ⟨13, _⟩ => ⟨S1024x8192, .bf16⟩
  | .local _ .vmem, ⟨14, _⟩ => ⟨S512x1024, .f32⟩
  | .local _ .vmem, ⟨15, _⟩ => ⟨S1024x512, .f32⟩
  | .local _ .vmem, ⟨16, _⟩ => ⟨S128x512, .f32⟩
  | .local _ .vmem, ⟨17, _⟩ => ⟨S128x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x8192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x8192 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S8192_S1x8192 : S8192.ShapeCasts S1x8192
  bitsLt_bf16_f32 : FTy.bits .bf16 < FTy.bits .f32
  transposes_S8192x1024_S1024x8192_1_0 : S8192x1024.Transposes [1, 0] S1024x8192
  transposes_S8192x2048_S2048x8192_1_0 : S8192x2048.Transposes [1, 0] S2048x8192
  slices_S2048x8192_S1024x8192_0_0 : S2048x8192.Slices ![0, 0] S1024x8192
  slices_S2048x8192_S1024x8192_1024_0 : S2048x8192.Slices ![1024, 0] S1024x8192
  transposes_S512x1024_S1024x512_1_0 : S512x1024.Transposes [1, 0] S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  inb_S128x1024_S128x1024_0_0 : ∀ a, (![0, 0] : Fin 2 → Nat) a + S128x1024.size a ≤ S128x1024.size a
  h_S128x1024 : 0 < S128x1024.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S128x8192_o0_0_S128x2048 : S128x8192.Slices ![0, 0] S128x2048
  slices_S128x8192_o0_2048_S128x2048 : S128x8192.Slices ![0, 2048] S128x2048
  slices_S128x8192_o0_4096_S128x2048 : S128x8192.Slices ![0, 4096] S128x2048
  slices_S128x8192_o0_6144_S128x2048 : S128x8192.Slices ![0, 6144] S128x2048
  slices_S128x2048_o0_0_S128x1024 : S128x2048.Slices ![0, 0] S128x1024
  reduces_S128x512_S128 : S128x512.Reduces [1] S128
  shapeCasts_S128_S128x1 : S128.ShapeCasts S128x1
  broadcasts_S128x1_S128x512 : S128x1.Broadcasts S128x512
  inb_S128x512_S128x512_0_0 : ∀ a, (![0, 0] : Fin 2 → Nat) a + S128x512.size a ≤ S128x512.size a
  h_S128x512 : 0 < S128x512.numel
  dot_S512x1024_S1024x2048_S512x2048_1_0_0_1_n_n_wf : DotDims.WF S512x1024 S1024x2048 S512x2048 [1] [0] [0] [1] [] []
  dot_S128x1024_S1024x8192_S128x8192_1_0_0_1_n_n_wf : DotDims.WF S128x1024 S1024x8192 S128x8192 [1] [0] [0] [1] [] []
  dot_S128x1024_S1024x512_S128x512_1_0_0_1_n_n_wf : DotDims.WF S128x1024 S1024x512 S128x512 [1] [0] [0] [1] [] []
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x8192.size a
  hwx0_1 : ∀ i : grid0.Coords, EltTy.bits .bf16 = 32 ∨ (Rect.block (s := S1024x8192) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x8192.size a
  hwx0_3 : ∀ i : grid0.Coords, EltTy.bits .f32 = 32 ∨ (Rect.block (s := S2048x8192) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S2048x1024.size a
  hwx1_0 : ∀ i : grid1.Coords, EltTy.bits .f32 = 32 ∨ (Rect.block (s := S2048x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8192.size a ≤ S2048x8192.size a
  hwx1_1 : ∀ i : grid1.Coords, EltTy.bits .f32 = 32 ∨ (Rect.block (s := S2048x8192) S128x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x8192.size a ≤ S1024x8192.size a
  hwx1_2 : ∀ i : grid1.Coords, EltTy.bits .bf16 = 32 ∨ (Rect.block (s := S1024x8192) S1024x8192.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x8192.size a ≤ S1024x8192.size a
  hwx1_3 : ∀ i : grid1.Coords, EltTy.bits .bf16 = 32 ∨ (Rect.block (s := S1024x8192) S1024x8192.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S512x1024.size a
  hwx1_4 : ∀ i : grid1.Coords, EltTy.bits .f32 = 32 ∨ (Rect.block (s := S512x1024) S512x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .f32 = 32 ∨ (Rect.block (s := S1024x512) S1024x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S2048x512.size a
  hwx1_6 : ∀ i : grid1.Coords, EltTy.bits .f32 = 32 ∨ (Rect.block (s := S2048x512) S128x512.size (cc1_transform_6 i) (hinb1_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S128x1024_S1024x8192_S128x8192_1_0_0_1_n_n : DotDims S128x1024 S1024x8192 S128x8192 where
  lhsContracting := [1]
  rhsContracting := [0]
  lhsNonContracting := [0]
  rhsNonContracting := [1]
  lhsBatch := []
  rhsBatch := []
  wf := dot_S128x1024_S1024x8192_S128x8192_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S512x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S128x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x1024 : Shape := ⟨2, ![512, 1024]⟩
abbrev S2048x1024 : Shape := ⟨2, ![2048, 1024]⟩
abbrev S8192x1024 : Shape := ⟨2, ![8192, 1024]⟩
abbrev S8192x2048 : Shape := ⟨2, ![8192, 2048]⟩
abbrev S8192 : Shape := ⟨1, ![8192]⟩
abbrev S_ : Shape := ⟨0, ![]⟩
abbrev S2048x2048 : Shape := ⟨2, ![2048, 2048]⟩
abbrev S1024x8192 : Shape := ⟨2, ![1024, 8192]⟩
abbrev S2048x8192 : Shape := ⟨2, ![2048, 8192]⟩
abbrev S1x8192 : Shape := ⟨2, ![1, 8192]⟩
abbrev S1024x512 : Shape := ⟨2, ![1024, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 274
  | .vmem => 0
  | .smem => 0
  | _ => 0

abbrev hbmTy0_0 (i : Nat) : BufTy := match i % 128 with
  | 0 => ⟨S512x1024, .f32⟩
  | 1 => ⟨S512x1024, .f32⟩
  | 2 => ⟨S2048x1024, .f32⟩
  | 3 => ⟨S2048x1024, .f32⟩
  | 4 => ⟨S8192x1024, .f32⟩
  | 5 => ⟨S8192x2048, .f32⟩
  | 6 => ⟨S8192, .f32⟩
  | 7 => ⟨S8192, .f32⟩
  | 8 => ⟨S_, .f32⟩
  | 9 => ⟨S2048x2048, .f32⟩
  | 10 => ⟨S_, .f32⟩
  | 11 => ⟨S2048x2048, .f32⟩
  | 12 => ⟨S1024x8192, .f32⟩
  | 13 => ⟨S2048x8192, .f32⟩
  | 14 => ⟨S2048x8192, .f32⟩
  | 15 => ⟨S2048x8192, .f32⟩
  | 16 => ⟨S2048x8192, .f32⟩
  | 17 => ⟨S1x8192, .f32⟩
  | 18 => ⟨S2048x8192, .f32⟩
  | 19 => ⟨S2048x8192, .f32⟩
  | 20 => ⟨S1x8192, .f32⟩
  | 21 => ⟨S2048x8192, .f32⟩
  | 22 => ⟨S2048x8192, .f32⟩
  | 23 => ⟨S2048x2048, .f32⟩
  | 24 => ⟨S2048x2048, .f32⟩
  | 25 => ⟨S2048x2048, .f32⟩
  | 26 => ⟨S2048x2048, .f32⟩
  | 27 => ⟨S2048x2048, .f32⟩
  | 28 => ⟨S2048x2048, .f32⟩
  | 29 => ⟨S_, .f32⟩
  | 30 => ⟨S2048x2048, .f32⟩
  | 31 => ⟨S2048x2048, .f32⟩
  | 32 => ⟨S_, .f32⟩
  | 33 => ⟨S2048x2048, .f32⟩
  | 34 => ⟨S2048x2048, .f32⟩
  | 35 => ⟨S2048x2048, .f32⟩
  | 36 => ⟨S2048x2048, .f32⟩
  | 37 => ⟨S2048x2048, .f32⟩
  | 38 => ⟨S_, .f32⟩
  | 39 => ⟨S2048x2048, .f32⟩
  | 40 => ⟨S2048x2048, .f32⟩
  | 41 => ⟨S_, .f32⟩
  | 42 => ⟨S2048x2048, .f32⟩
  | 43 => ⟨S2048x2048, .f32⟩
  | 44 => ⟨S2048x2048, .f32⟩
  | 45 => ⟨S2048x2048, .f32⟩
  | 46 => ⟨S2048x2048, .f32⟩
  | 47 => ⟨S2048x2048, .f32⟩
  | 48 => ⟨S2048x2048, .f32⟩
  | 49 => ⟨S_, .f32⟩
  | 50 => ⟨S2048x2048, .f32⟩
  | 51 => ⟨S2048x2048, .f32⟩
  | 52 => ⟨S_, .f32⟩
  | 53 => ⟨S2048x2048, .f32⟩
  | 54 => ⟨S2048x2048, .f32⟩
  | 55 => ⟨S2048x2048, .f32⟩
  | 56 => ⟨S2048x2048, .f32⟩
  | 57 => ⟨S2048x1024, .f32⟩
  | 58 => ⟨S2048x1024, .f32⟩
  | 59 => ⟨S1024x512, .f32⟩
  | 60 => ⟨S2048x512, .f32⟩
  | 61 => ⟨S_, .f32⟩
  | 62 => ⟨S2048, .f32⟩
  | 63 => ⟨S_, .f32⟩
  | 64 => ⟨S2048, .f32⟩
  | 65 => ⟨S2048, .f32⟩
  | 66 => ⟨S2048x1, .f32⟩
  | 67 => ⟨S2048x512, .f32⟩
  | 68 => ⟨S2048x512, .f32⟩
  | 69 => ⟨S2048x512, .f32⟩
  | 70 => ⟨S_, .f32⟩
  | 71 => ⟨S2048, .f32⟩
  | 72 => ⟨S2048x1, .f32⟩
  | 73 => ⟨S2048x512, .f32⟩
  | 74 => ⟨S2048x512, .f32⟩
  | 75 => ⟨S2048x1024, .f32⟩
  | 76 => ⟨S2048x2048, .f32⟩
  | 77 => ⟨S1024x8192, .f32⟩
  | 78 => ⟨S2048x8192, .f32⟩
  | 79 => ⟨S2048x8192, .f32⟩
  | 80 => ⟨S2048x8192, .f32⟩
  | 81 => ⟨S2048x8192, .f32⟩
  | 82 => ⟨S1x8192, .f32⟩
  | 83 => ⟨S2048x8192, .f32⟩
  | 84 => ⟨S2048x8192, .f32⟩
  | 85 => ⟨S1x8192, .f32⟩
  | 86 => ⟨S2048x8192, .f32⟩
  | 87 => ⟨S2048x8192, .f32⟩
  | 88 => ⟨S2048x2048, .f32⟩
  | 89 => ⟨S2048x2048, .f32⟩
  | 90 => ⟨S2048x2048, .f32⟩
  | 91 => ⟨S2048x2048, .f32⟩
  | 92 => ⟨S2048x2048, .f32⟩
  | 93 => ⟨S2048x2048, .f32⟩
  | 94 => ⟨S_, .f32⟩
  | 95 => ⟨S2048x2048, .f32⟩
  | 96 => ⟨S2048x2048, .f32⟩
  | 97 => ⟨S_, .f32⟩
  | 98 => ⟨S2048x2048, .f32⟩
  | 99 => ⟨S2048x2048, .f32⟩
  | 100 => ⟨S2048x2048, .f32⟩
  | 101 => ⟨S2048x2048, .f32⟩
  | 102 => ⟨S2048x2048, .f32⟩
  | 103 => ⟨S_, .f32⟩
  | 104 => ⟨S2048x2048, .f32⟩
  | 105 => ⟨S2048x2048, .f32⟩
  | 106 => ⟨S_, .f32⟩
  | 107 => ⟨S2048x2048, .f32⟩
  | 108 => ⟨S2048x2048, .f32⟩
  | 109 => ⟨S2048x2048, .f32⟩
  | 110 => ⟨S2048x2048, .f32⟩
  | 111 => ⟨S2048x2048, .f32⟩
  | 112 => ⟨S2048x2048, .f32⟩
  | 113 => ⟨S2048x2048, .f32⟩
  | 114 => ⟨S_, .f32⟩
  | 115 => ⟨S2048x2048, .f32⟩
  | 116 => ⟨S2048x2048, .f32⟩
  | 117 => ⟨S_, .f32⟩
  | 118 => ⟨S2048x2048, .f32⟩
  | 119 => ⟨S2048x2048, .f32⟩
  | 120 => ⟨S2048x2048, .f32⟩
  | 121 => ⟨S2048x2048, .f32⟩
  | 122 => ⟨S2048x1024, .f32⟩
  | 123 => ⟨S2048x1024, .f32⟩
  | 124 => ⟨S1024x512, .f32⟩
  | 125 => ⟨S2048x512, .f32⟩
  | 126 => ⟨S_, .f32⟩
  | 127 => ⟨S2048, .f32⟩
  | _ => ⟨S512x1024, .f32⟩

abbrev hbmTy0_1 (i : Nat) : BufTy := match i % 128 with
  | 0 => ⟨S_, .f32⟩
  | 1 => ⟨S2048, .f32⟩
  | 2 => ⟨S2048, .f32⟩
  | 3 => ⟨S2048x1, .f32⟩
  | 4 => ⟨S2048x512, .f32⟩
  | 5 => ⟨S2048x512, .f32⟩
  | 6 => ⟨S2048x512, .f32⟩
  | 7 => ⟨S_, .f32⟩
  | 8 => ⟨S2048, .f32⟩
  | 9 => ⟨S2048x1, .f32⟩
  | 10 => ⟨S2048x512, .f32⟩
  | 11 => ⟨S2048x512, .f32⟩
  | 12 => ⟨S2048x1024, .f32⟩
  | 13 => ⟨S2048x2048, .f32⟩
  | 14 => ⟨S1024x8192, .f32⟩
  | 15 => ⟨S2048x8192, .f32⟩
  | 16 => ⟨S2048x8192, .f32⟩
  | 17 => ⟨S2048x8192, .f32⟩
  | 18 => ⟨S2048x8192, .f32⟩
  | 19 => ⟨S1x8192, .f32⟩
  | 20 => ⟨S2048x8192, .f32⟩
  | 21 => ⟨S2048x8192, .f32⟩
  | 22 => ⟨S1x8192, .f32⟩
  | 23 => ⟨S2048x8192, .f32⟩
  | 24 => ⟨S2048x8192, .f32⟩
  | 25 => ⟨S2048x2048, .f32⟩
  | 26 => ⟨S2048x2048, .f32⟩
  | 27 => ⟨S2048x2048, .f32⟩
  | 28 => ⟨S2048x2048, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S_, .f32⟩
  | 35 => ⟨S2048x2048, .f32⟩
  | 36 => ⟨S2048x2048, .f32⟩
  | 37 => ⟨S2048x2048, .f32⟩
  | 38 => ⟨S2048x2048, .f32⟩
  | 39 => ⟨S2048x2048, .f32⟩
  | 40 => ⟨S_, .f32⟩
  | 41 => ⟨S2048x2048, .f32⟩
  | 42 => ⟨S2048x2048, .f32⟩
  | 43 => ⟨S_, .f32⟩
  | 44 => ⟨S2048x2048, .f32⟩
  | 45 => ⟨S2048x2048, .f32⟩
  | 46 => ⟨S2048x2048, .f32⟩
  | 47 => ⟨S2048x2048, .f32⟩
  | 48 => ⟨S2048x2048, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S_, .f32⟩
  | 55 => ⟨S2048x2048, .f32⟩
  | 56 => ⟨S2048x2048, .f32⟩
  | 57 => ⟨S2048x2048, .f32⟩
  | 58 => ⟨S2048x2048, .f32⟩
  | 59 => ⟨S2048x1024, .f32⟩
  | 60 => ⟨S2048x1024, .f32⟩
  | 61 => ⟨S1024x512, .f32⟩
  | 62 => ⟨S2048x512, .f32⟩
  | 63 => ⟨S_, .f32⟩
  | 64 => ⟨S2048, .f32⟩
  | 65 => ⟨S_, .f32⟩
  | 66 => ⟨S2048, .f32⟩
  | 67 => ⟨S2048, .f32⟩
  | 68 => ⟨S2048x1, .f32⟩
  | 69 => ⟨S2048x512, .f32⟩
  | 70 => ⟨S2048x512, .f32⟩
  | 71 => ⟨S2048x512, .f32⟩
  | 72 => ⟨S_, .f32⟩
  | 73 => ⟨S2048, .f32⟩
  | 74 => ⟨S2048x1, .f32⟩
  | 75 => ⟨S2048x512, .f32⟩
  | 76 => ⟨S2048x512, .f32⟩
  | 77 => ⟨S2048x1024, .f32⟩
  | 78 => ⟨S2048x2048, .f32⟩
  | 79 => ⟨S1024x8192, .f32⟩
  | 80 => ⟨S2048x8192, .f32⟩
  | 81 => ⟨S2048x8192, .f32⟩
  | 82 => ⟨S2048x8192, .f32⟩
  | 83 => ⟨S2048x8192, .f32⟩
  | 84 => ⟨S1x8192, .f32⟩
  | 85 => ⟨S2048x8192, .f32⟩
  | 86 => ⟨S2048x8192, .f32⟩
  | 87 => ⟨S1x8192, .f32⟩
  | 88 => ⟨S2048x8192, .f32⟩
  | 89 => ⟨S2048x8192, .f32⟩
  | 90 => ⟨S2048x2048, .f32⟩
  | 91 => ⟨S2048x2048, .f32⟩
  | 92 => ⟨S2048x2048, .f32⟩
  | 93 => ⟨S2048x2048, .f32⟩
  | 94 => ⟨S2048x2048, .f32⟩
  | 95 => ⟨S2048x2048, .f32⟩
  | 96 => ⟨S_, .f32⟩
  | 97 => ⟨S2048x2048, .f32⟩
  | 98 => ⟨S2048x2048, .f32⟩
  | 99 => ⟨S_, .f32⟩
  | 100 => ⟨S2048x2048, .f32⟩
  | 101 => ⟨S2048x2048, .f32⟩
  | 102 => ⟨S2048x2048, .f32⟩
  | 103 => ⟨S2048x2048, .f32⟩
  | 104 => ⟨S2048x2048, .f32⟩
  | 105 => ⟨S_, .f32⟩
  | 106 => ⟨S2048x2048, .f32⟩
  | 107 => ⟨S2048x2048, .f32⟩
  | 108 => ⟨S_, .f32⟩
  | 109 => ⟨S2048x2048, .f32⟩
  | 110 => ⟨S2048x2048, .f32⟩
  | 111 => ⟨S2048x2048, .f32⟩
  | 112 => ⟨S2048x2048, .f32⟩
  | 113 => ⟨S2048x2048, .f32⟩
  | 114 => ⟨S2048x2048, .f32⟩
  | 115 => ⟨S2048x2048, .f32⟩
  | 116 => ⟨S_, .f32⟩
  | 117 => ⟨S2048x2048, .f32⟩
  | 118 => ⟨S2048x2048, .f32⟩
  | 119 => ⟨S_, .f32⟩
  | 120 => ⟨S2048x2048, .f32⟩
  | 121 => ⟨S2048x2048, .f32⟩
  | 122 => ⟨S2048x2048, .f32⟩
  | 123 => ⟨S2048x2048, .f32⟩
  | 124 => ⟨S2048x1024, .f32⟩
  | 125 => ⟨S2048x1024, .f32⟩
  | 126 => ⟨S1024x512, .f32⟩
  | 127 => ⟨S2048x512, .f32⟩
  | _ => ⟨S512x1024, .f32⟩

abbrev hbmTy0_2 (i : Nat) : BufTy := match i % 128 with
  | 0 => ⟨S_, .f32⟩
  | 1 => ⟨S2048, .f32⟩
  | 2 => ⟨S_, .f32⟩
  | 3 => ⟨S2048, .f32⟩
  | 4 => ⟨S2048, .f32⟩
  | 5 => ⟨S2048x1, .f32⟩
  | 6 => ⟨S2048x512, .f32⟩
  | 7 => ⟨S2048x512, .f32⟩
  | 8 => ⟨S2048x512, .f32⟩
  | 9 => ⟨S_, .f32⟩
  | 10 => ⟨S2048, .f32⟩
  | 11 => ⟨S2048x1, .f32⟩
  | 12 => ⟨S2048x512, .f32⟩
  | 13 => ⟨S2048x512, .f32⟩
  | 14 => ⟨S2048x1024, .f32⟩
  | 15 => ⟨S2048x2048, .f32⟩
  | 16 => ⟨S1024x512, .f32⟩
  | 17 => ⟨S2048x512, .f32⟩
  | _ => ⟨S512x1024, .f32⟩

abbrev hbmTy (i : Nat) : BufTy := match i / 128 with
  | 0 => hbmTy0_0 i
  | 1 => hbmTy0_1 i
  | 2 => hbmTy0_2 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_10 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_14 : Ref sig .tc := ⟨.hbm, 114, rfl⟩
abbrev main_v91 : Ref sig .tc := ⟨.hbm, 115, rfl⟩
abbrev main_v92 : Ref sig .tc := ⟨.hbm, 116, rfl⟩
abbrev main_cst_15 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_16 : Ref sig .tc := ⟨.hbm, 126, rfl⟩
abbrev main_v101 : Ref sig .tc := ⟨.hbm, 127, rfl⟩
abbrev main_cst_17 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_18 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_19 : Ref sig .tc := ⟨.hbm, 159, rfl⟩
abbrev main_v131 : Ref sig .tc := ⟨.hbm, 160, rfl⟩
abbrev main_v132 : Ref sig .tc := ⟨.hbm, 161, rfl⟩
abbrev main_cst_20 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_21 : Ref sig .tc := ⟨.hbm, 168, rfl⟩
abbrev main_v138 : Ref sig .tc := ⟨.hbm, 169, rfl⟩
abbrev main_v139 : Ref sig .tc := ⟨.hbm, 170, rfl⟩
abbrev main_cst_22 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_23 : Ref sig .tc := ⟨.hbm, 179, rfl⟩
abbrev main_v147 : Ref sig .tc := ⟨.hbm, 180, rfl⟩
abbrev main_v148 : Ref sig .tc := ⟨.hbm, 181, rfl⟩
abbrev main_cst_24 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_25 : Ref sig .tc := ⟨.hbm, 191, rfl⟩
abbrev main_v157 : Ref sig .tc := ⟨.hbm, 192, rfl⟩
abbrev main_cst_26 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_27 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_28 : Ref sig .tc := ⟨.hbm, 224, rfl⟩
abbrev main_v187 : Ref sig .tc := ⟨.hbm, 225, rfl⟩
abbrev main_v188 : Ref sig .tc := ⟨.hbm, 226, rfl⟩
abbrev main_cst_29 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_cst_30 : Ref sig .tc := ⟨.hbm, 233, rfl⟩
abbrev main_v194 : Ref sig .tc := ⟨.hbm, 234, rfl⟩
abbrev main_v195 : Ref sig .tc := ⟨.hbm, 235, rfl⟩
abbrev main_cst_31 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_cst_32 : Ref sig .tc := ⟨.hbm, 244, rfl⟩
abbrev main_v203 : Ref sig .tc := ⟨.hbm, 245, rfl⟩
abbrev main_v204 : Ref sig .tc := ⟨.hbm, 246, rfl⟩
abbrev main_cst_33 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_cst_34 : Ref sig .tc := ⟨.hbm, 256, rfl⟩
abbrev main_v213 : Ref sig .tc := ⟨.hbm, 257, rfl⟩
abbrev main_cst_35 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_cst_36 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  transposes_S8192x1024_S1024x8192_1_0 : S8192x1024.Transposes [1, 0] S1024x8192
  transposes_S8192x2048_S2048x8192_1_0 : S8192x2048.Transposes [1, 0] S2048x8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  slices_S2048x8192_S2048x2048_0_0 : S2048x8192.Slices ![0, 0] S2048x2048
  slices_S2048x8192_S2048x2048_0_2048 : S2048x8192.Slices ![0, 2048] S2048x2048
  slices_S2048x8192_S2048x2048_0_4096 : S2048x8192.Slices ![0, 4096] S2048x2048
  slices_S2048x8192_S2048x2048_0_6144 : S2048x8192.Slices ![0, 6144] S2048x2048
  slices_S2048x2048_S2048x1024_0_0 : S2048x2048.Slices ![0, 0] S2048x1024
  transposes_S512x1024_S1024x512_1_0 : S512x1024.Transposes [1, 0] S1024x512
  reducesTo_S2048x512_S2048_d1 : S2048x512.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  concatenates_S2048x1024_S2048x1024_S2048x2048_d1 : Shape.Concatenates [S2048x1024, S2048x1024] S2048x2048 1
  dot_S2048x1024_S1024x8192_S2048x8192_1_0_0_1_n_n_wf : DotDims.WF S2048x1024 S1024x8192 S2048x8192 [1] [0] [0] [1] [] []
  dot_S2048x2048_S2048x8192_S2048x8192_1_0_0_1_n_n_wf : DotDims.WF S2048x2048 S2048x8192 S2048x8192 [1] [0] [0] [1] [] []
  dot_S2048x1024_S1024x512_S2048x512_1_0_0_1_n_n_wf : DotDims.WF S2048x1024 S1024x512 S2048x512 [1] [0] [0] [1] [] []
  dot_S2048x512_S512x1024_S2048x1024_1_0_0_1_n_n_wf : DotDims.WF S2048x512 S512x1024 S2048x1024 [1] [0] [0] [1] [] []

variable [Facts₀]

def dot_S2048x1024_S1024x8192_S2048x8192_1_0_0_1_n_n : DotDims S2048x1024 S1024x8192 S2048x8192 where
  lhsContracting := [1]
  rhsContracting := [0]
  lhsNonContracting := [0]
  rhsNonContracting := [1]
  lhsBatch := []
  rhsBatch := []
  wf := dot_S2048x1024_S1024x8192_S2048x8192_1_0_0_1_n_n_wf
def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

class Facts : Prop extends Facts₀ where

variable [Facts]
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.KernelConst.lean ====
/-
  THE FIRST KERNEL: the input part of the gates, for all 2048 query rows at once.

  The launch runs over a 4 × 4 grid. Point (a, b) takes rows 512a … 512a + 511 of the queries, columns
  2048b … 2048b + 2047 of `W_ihᵀ` and of the bias row, and writes block (a, b) of the result: at (p, n) of the block the
  inner product of query row `512a + p` with column `2048b + n` of `W_ihᵀ`, plus the bias at that column. The sixteen
  blocks tile the [2048, 8192] result, so after the launch the whole array is that one function of the three arrays the
  launch found: `prod` below.
-/
import proofs.«113116_j86131274154742_2_alg».proof.Proof.Gen.KernelIdeal.Frame
import proofs.«113116_j86131274154742_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx
  Idealize.SL.Sem
open Idealize.ShloMosaic.Pipeline (Dat)

theorem zeroOffsets : (![0, 0] : Fin 2 → Nat) = fun _ => 0 := funext fun a => by fin_cases a <;> rfl

/-- What the body leaves at (p, n) of its output block: row `p` of the first block times column `n` of the second, plus
    entry `n` of the one-row third. -/
theorem out0_3_apply (x0 : FVec Ideal S512x1024 .bf16) (x1 : FVec Ideal S1024x2048 .bf16) (x2 : FVec Ideal S1x2048 .f32)
    (p : Fin 512) (n : Fin 2048) :
    out0_3 (F := Ideal) x0 x1 x2 (ix2 p n) = (∑ k : Fin 1024, x0 (ix2 p k) * x1 (ix2 k n)) + x2 (ix2 (0 : Fin 1) n) := by
  unfold out0_3
  rw [View.canon_unit_zero zeroOffsets]
  simp only [View.ld_unit_zero (S := S512x1024) zeroOffsets, View.ld_unit_zero (S := S1024x2048) zeroOffsets,
    View.ld_unit_zero (S := S1x2048) zeroOffsets]
  unfold k0_pay1
  simp only [shapeCast_self]
  refine (addf_apply _ _ _).trans ?_
  refine congrArg₂ (· + ·) ?_ (broadcastTo_1b_ab_apply x2 _ p n)
  refine (Ideal.matmul_constant_zero_apply (φ₁ := .bf16) (φ₂ := .bf16) dot_S512x1024_S1024x2048_S512x2048_1_0_0_1_n_n none x0 x1
    (ix2 p n)).trans ?_
  exact Cert.Lib.sum_contr_plain dot_S512x1024_S1024x2048_S512x2048_1_0_0_1_n_n rfl rfl rfl rfl rfl rfl
    (fun a b => x0 a * x1 b) p n

section Launch

variable (V : (c : Dev nD) → (b : Ref sig .tc) → Buf (Elt Ideal) ((c : Thread nD τ).loc b)) (c : Dev nD)

/-- The index maps over the grid: the query block follows the output's row block, the weight and bias blocks its
    column block, and the output's block at point `t` is (t / 4, t % 4). -/
theorem blockIndex0 : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

/-- The three arrays the launch finds, as tables of extended reals: the queries, `W_ihᵀ`, the one bias row. -/
abbrev qryArr : S2048x1024.Idx → EReal := V c main_v2
abbrev wihTArr : S1024x8192.Idx → EReal := V c main_v4
abbrev biasArr : S1x8192.Idx → EReal := V c main_v1

/-- The whole result as one function of the arrays the launch finds: queries times `W_ihᵀ`, plus the bias row. -/
def prod : S2048x8192.Idx → EReal := fun i =>
  (∑ k : Fin 1024, qryArr V c (ix2 (⟨(i 0).val, idx2_lt0 i⟩ : Fin 2048) k)
      * wihTArr V c (ix2 k (⟨(i 1).val, idx2_lt1 i⟩ : Fin 8192)))
    + biasArr V c (ix2 (0 : Fin 1) (⟨(i 1).val, idx2_lt1 i⟩ : Fin 8192))

/-- The query block at point `t`: rows `512 (t / 4) + p`. -/
theorem queryBlock (t : Fin cfg0.N) (p : Fin 512) (k : Fin 1024) (b : Fin 2048) (hb : b.val = t.val / 4 * 512 + p.val) :
    (iblk0 V c 0 t : FVec Ideal S512x1024 .bf16) (ix2 p k) = qryArr V c (ix2 b k) := by
  obtain ⟨e0, e1, -⟩ := blockIndex0 t
  unfold iblk0
  rw [View.read_apply]
  show qryArr V c _ = _
  refine congrArg _ (funext fun a => Fin.ext ?_)
  match a with
  | ⟨0, _⟩ => show win0_0.index t (0 : Fin 2) * 512 + 1 * p.val = b.val; rw [e0, hb]; omega
  | ⟨1, _⟩ => show win0_0.index t (1 : Fin 2) * 1024 + 1 * k.val = k.val; rw [e1]; omega

/-- The weight block at point `t`: columns `2048 (t % 4) + n`. -/
theorem weightBlock (t : Fin cfg0.N) (k : Fin 1024) (n : Fin 2048) (j : Fin 8192) (hj : j.val = t.val % 4 * 2048 + n.val) :
    (iblk0 V c 1 t : FVec Ideal S1024x2048 .bf16) (ix2 k n) = wihTArr V c (ix2 k j) := by
  obtain ⟨-, -, e0, e1, -⟩ := blockIndex0 t
  unfold iblk0
  rw [View.read_apply]
  show wihTArr V c _ = _
  refine congrArg _ (funext fun a => Fin.ext ?_)
  match a with
  | ⟨0, _⟩ => show win0_1.index t (0 : Fin 2) * 1024 + 1 * k.val = k.val; rw [e0]; omega
  | ⟨1, _⟩ => show win0_1.index t (1 : Fin 2) * 2048 + 1 * n.val = j.val; rw [e1, hj]; omega

/-- The bias block at point `t`: the same columns of the one bias row. -/
theorem biasBlock (t : Fin cfg0.N) (n : Fin 2048) (j : Fin 8192) (hj : j.val = t.val % 4 * 2048 + n.val) :
    (iblk0 V c 2 t : FVec Ideal S1x2048 .f32) (ix2 (0 : Fin 1) n) = biasArr V c (ix2 (0 : Fin 1) j) := by
  obtain ⟨-, -, -, -, e0, e1, -⟩ := blockIndex0 t
  unfold iblk0
  rw [View.read_apply]
  show biasArr V c _ = _
  refine congrArg _ (funext fun a => Fin.ext ?_)
  match a with
  | ⟨0, _⟩ => show win0_2.index t (0 : Fin 2) * 1 + 1 * 0 = 0; rw [e0]
  | ⟨1, _⟩ => show win0_2.index t (1 : Fin 2) * 2048 + 1 * n.val = j.val; rw [e1, hj]; omega

/-- What point `t` writes back is block `t` of `prod`. -/
theorem flushedProd (t : Fin cfg0.N) :
    (dat0 V c).flushed 3 t = ((cfg0.win 3).blk t).view.read (Elt Ideal) (prod V c) := by
  obtain ⟨-, -, -, -, -, -, e0, e1⟩ := blockIndex0 t
  show (cfg0.win 3).cut (grid0.coords t) ((dat0 V c).after 3 t) = _
  rw [after0_3]
  funext y
  obtain ⟨p, n, rfl⟩ : ∃ (p : Fin 512) (n : Fin 2048), y = ix2 p n := ⟨y 0, y 1, eq_ix2 y⟩
  have ht : t.val < 16 := lt_of_lt_of_eq t.isLt (N_0 : cfg0.N = 16)
  have hr : t.val / 4 * 512 + p.val < 2048 := by have := p.isLt; omega
  have hc : t.val % 4 * 2048 + n.val < 8192 := by have := n.isLt; omega
  show out0_3 (iblk0 V c 0 t) (iblk0 V c 1 t) (iblk0 V c 2 t) (ix2 p n) = prod V c (((cfg0.win 3).blk t).view.emb (ix2 p n))
  rw [out0_3_apply]
  have r0 : ((((cfg0.win 3).blk t).view.emb (ix2 p n)) 0).val = t.val / 4 * 512 + p.val := by
    show win0_3.index t (0 : Fin 2) * 512 + 1 * p.val = _; rw [e0]; omega
  have r1 : ((((cfg0.win 3).blk t).view.emb (ix2 p n)) 1).val = t.val % 4 * 2048 + n.val := by
    show win0_3.index t (1 : Fin 2) * 2048 + 1 * n.val = _; rw [e1]; omega
  unfold prod
  refine congrArg₂ (· + ·) (Finset.sum_congr rfl fun k _ => congrArg₂ (· * ·) ?_ ?_) ?_
  · exact queryBlock V c t p k _ r0
  · exact weightBlock V c t k n _ r1
  · exact biasBlock V c t n _ r1

/-- An index of the result is in point `t`'s block iff each coordinate is in the block's range on its axis. -/
theorem memBlock0 (t : Fin cfg0.N) (i : S2048x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v10).slice (win0_3.rect t)).set ↔ _
  rw [View.set_slice_whole, Rect.mem_set_unit]
  exact Iff.rfl

/-- After the launch the result array is `prod`: the point that covers (r, j) is 4 (r / 512) + j / 2048. -/
theorem finalProd : (dat0 V c).arrAt 3 cfg0.N = prod V c :=
  (dat0 V c).arrAt_eq_of_cover 3 (prod V c) (fun t _ => flushedProd V c t) fun i => by
    have h0 : (i 0).val < 2048 := idx2_lt0 i
    have h1 : (i 1).val < 8192 := idx2_lt1 i
    have hN : cfg0.N = 16 := N_0
    refine ⟨⟨4 * ((i 0).val / 512) + (i 1).val / 2048, by rw [hN]; omega⟩, flush0_3 _, ?_⟩
    rw [memBlock0]
    obtain ⟨-, -, -, -, -, -, e0, e1⟩ := blockIndex0 ⟨4 * ((i 0).val / 512) + (i 1).val / 2048, by rw [hN]; omega⟩
    intro a
    match a with
    | ⟨0, _⟩ =>
      show win0_3.index _ (0 : Fin 2) * 512 ≤ (i 0).val ∧ (i 0).val < win0_3.index _ (0 : Fin 2) * 512 + 512
      rw [e0]; simp only []; omega
    | ⟨1, _⟩ =>
      show win0_3.index _ (1 : Fin 2) * 2048 ≤ (i 1).val ∧ (i 1).val < win0_3.index _ (1 : Fin 2) * 2048 + 2048
      rw [e1]; simp only []; omega

end Launch

end Cert.KernelIdeal.Hand

end
-- ==== Proof.KernelHost.lean ====
/-
  THE HOST STRETCH BEFORE THE TWO LAUNCHES, buffer by buffer.

  Before the first launch the program lays its arguments out for the kernels: the queries and the two weight matrices
  change format (the identity on extended reals), both weight matrices are transposed, `W_hhᵀ` is cut into its first and
  last 1024 rows (the rows that meet `h` and `r`), the two biases are added and laid as one row, and the support set is
  transposed. Read at an index, each of these buffers is one entry of an argument (for the bias row, the sum of two).
-/
import proofs.«113116_j86131274154742_2_alg».proof.Proof.KernelConst
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.ShloMosaic.ValueIdx
  Idealize.SL.Sem Idealize.ShloMosaic.StableHlo

variable (m : (ℓ : Loc nD τ sig) → Buf (Elt Ideal) ℓ) (ρ : Dev nD → PrngReg) (c : Dev nD)

/-- The arguments the kernels' value depends on, as tables of extended reals: the support set, the queries, the two
    weight matrices, the two biases. -/
abbrev argSup : FVec Ideal S512x1024 .f32 := m ((c : Thread nD τ).loc main_arg0)
abbrev argQry : FVec Ideal S2048x1024 .f32 := m ((c : Thread nD τ).loc main_arg2)
abbrev argWih : FVec Ideal S8192x1024 .f32 := m ((c : Thread nD τ).loc main_arg4)
abbrev argWhh : FVec Ideal S8192x2048 .f32 := m ((c : Thread nD τ).loc main_arg5)
abbrev argBih : FVec Ideal S8192 .f32 := m ((c : Thread nD τ).loc main_arg6)
abbrev argBhh : FVec Ideal S8192 .f32 := m ((c : Thread nD τ).loc main_arg7)

/-! ## What the stretch leaves in each buffer the launches read -/

theorem host_qryBf : (V1 m ρ c main_v2 : FVec Ideal S2048x1024 .bf16) = truncf (F := Ideal) .bf16 (argQry m c) bitsLt_bf16_f32 := by
  dsimp only [V1, W1, hostOps0]; after_results <;> rfl

theorem host_wihT : (V1 m ρ c main_v4 : FVec Ideal S1024x8192 .bf16)
    = truncf (F := Ideal) .bf16 (transpose S1024x8192 [1, 0] (argWih m c) transposes_S8192x1024_S1024x8192_1_0) bitsLt_bf16_f32 := by
  dsimp only [V1, W1, hostOps0]; after_results <;> rfl

theorem host_bias : (V1 m ρ c main_v1 : FVec Ideal S1x8192 .f32)
    = shapeCast S1x8192 (addf (F := Ideal) (argBih m c) (argBhh m c)) shapeCasts_S8192_S1x8192 := by
  dsimp only [V1, W1, hostOps0]; after_results <;> rfl

theorem host_whhT_lo : (V1 m ρ c main_v7 : FVec Ideal S1024x8192 .bf16)
    = extractStridedSlice S1024x8192 ![0, 0]
        (truncf (F := Ideal) .bf16 (transpose S2048x8192 [1, 0] (argWhh m c) transposes_S8192x2048_S2048x8192_1_0) bitsLt_bf16_f32)
        slices_S2048x8192_S1024x8192_0_0 := by
  dsimp only [V1, W1, hostOps0]; after_results <;> rfl

theorem host_whhT_hi : (V1 m ρ c main_v8 : FVec Ideal S1024x8192 .bf16)
    = extractStridedSlice S1024x8192 ![1024, 0]
        (truncf (F := Ideal) .bf16 (transpose S2048x8192 [1, 0] (argWhh m c) transposes_S8192x2048_S2048x8192_1_0) bitsLt_bf16_f32)
        slices_S2048x8192_S1024x8192_1024_0 := by
  dsimp only [V1, W1, hostOps0]; after_results <;> rfl

theorem host_supT : (V1 m ρ c main_v9 : FVec Ideal S1024x512 .f32) = transpose S1024x512 [1, 0] (argSup m c) transposes_S512x1024_S1024x512_1_0 := by
  dsimp only [V1, W1, hostOps0]; after_results <;> rfl

/-- The stretch writes neither the queries nor the support set. -/
theorem host_qry : (V1 m ρ c main_arg2 : FVec Ideal S2048x1024 .f32) = argQry m c := by
  dsimp only [V1, W1, hostOps0]; after_results <;> rfl

theorem host_sup : (V1 m ρ c main_arg0 : FVec Ideal S512x1024 .f32) = argSup m c := by
  dsimp only [V1, W1, hostOps0]; after_results <;> rfl

/-! ## The same, at an index -/

theorem qryBf_apply (b : Fin 2048) (k : Fin 1024) : qryArr (V1 m ρ) c (ix2 b k) = argQry m c (ix2 b k) := by
  show (V1 m ρ c main_v2 : FVec Ideal S2048x1024 .bf16) (ix2 b k) = _
  rw [host_qryBf]; rfl

theorem wihT_apply (k : Fin 1024) (n : Fin 8192) : wihTArr (V1 m ρ) c (ix2 k n) = argWih m c (ix2 n k) := by
  show (V1 m ρ c main_v4 : FVec Ideal S1024x8192 .bf16) (ix2 k n) = _
  rw [host_wihT]
  exact transpose_ix2_apply (argWih m c) transposes_S8192x1024_S1024x8192_1_0 k n

theorem bias_apply (n : Fin 8192) :
    biasArr (V1 m ρ) c (ix2 (0 : Fin 1) n) = argBih m c (ix1 n) + argBhh m c (ix1 n) := by
  show (V1 m ρ c main_v1 : FVec Ideal S1x8192 .f32) (ix2 (0 : Fin 1) n) = _
  rw [host_bias]
  exact shapeCast_a_1a_apply (addf (argBih m c) (argBhh m c)) shapeCasts_S8192_S1x8192 0 n

theorem whhT_lo_apply (k : Fin 1024) (n : Fin 8192) :
    (V1 m ρ c main_v7 : FVec Ideal S1024x8192 .bf16) (ix2 k n) = argWhh m c (ix2 n (⟨k.val, by omega⟩ : Fin 2048)) := by
  rw [host_whhT_lo]
  refine (slice2_axis0_apply 0 _ slices_S2048x8192_S1024x8192_0_0 k n (⟨k.val, by omega⟩ : Fin 2048)
    (Nat.zero_add _).symm).trans ?_
  exact transpose_ix2_apply (argWhh m c) transposes_S8192x2048_S2048x8192_1_0 _ n

theorem whhT_hi_apply (k : Fin 1024) (n : Fin 8192) :
    (V1 m ρ c main_v8 : FVec Ideal S1024x8192 .bf16) (ix2 k n) = argWhh m c (ix2 n (⟨1024 + k.val, by omega⟩ : Fin 2048)) := by
  rw [host_whhT_hi]
  refine (slice2_axis0_apply 1024 _ slices_S2048x8192_S1024x8192_1024_0 k n (⟨1024 + k.val, by omega⟩ : Fin 2048)
    rfl).trans ?_
  exact transpose_ix2_apply (argWhh m c) transposes_S8192x2048_S2048x8192_1_0 _ n

theorem supT_apply (k : Fin 1024) (j : Fin 512) :
    (V1 m ρ c main_v9 : FVec Ideal S1024x512 .f32) (ix2 k j) = argSup m c (ix2 j k) := by
  rw [host_supT]
  exact transpose_ix2_apply (argSup m c) transposes_S512x1024_S1024x512_1_0 k j

end Cert.KernelIdeal.Hand

end
-- ==== Proof.KernelRun.lean ====
/-
  THE KERNEL PROGRAM'S RUN, WITH ITS RESULT NAMED.

  The program is a stretch of host operations (transposes, format changes, a sum of the two biases, two row slices)
  followed by two kernel launches. Its generated frame says: every weakly fair execution terminates, nothing faults,
  and the eight argument arrays end as launched. The same launch of the same three segments ends with EVERY buffer the
  TensorCore holds at the contents the last boundary names; read at the result buffer as well as at the arguments, that
  is the run below: the result array ends at what the second kernel's write-backs leave of it.
-/
import proofs.«113116_j86131274154742_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result array ends at the contents the
    last segment boundary gives it, and the argument arrays end as launched. -/
theorem run_named : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Hand

end
-- ==== Proof.Spec.lean ====
/-
  ONE BATCH ROW of the matching network, as plain functions on the extended reals.

  A row `x` (1024 numbers) of the queries goes through four steps. Each step is an LSTM cell whose input is `x` itself
  and whose recurrent input is the pair `(h, r)` laid side by side (2048 numbers): `h` is the row's attention query and
  `r` its read-out of the support set `S` (512 rows of 1024 numbers). With `c` the cell state (2048 numbers):

    gates   g n  = x · W_ih[n, :]  +  (h · W_hh[n, 0:1024] + r · W_hh[n, 1024:2048])  +  b_ih n  +  b_hh n      (n < 8192)
    cell    c' j = σ(g (2048 + j)) · c j  +  σ(g j) · tanh (g (4096 + j))                                        (j < 2048)
    hidden  h' k = x k  +  σ(g (6144 + k)) · tanh (c' k)                                                         (k < 1024)
    score   s i  = h' · S[i, :]                                                                                  (i < 512)
    weights e i  = exp (s i − max_i s i),   read-out  r' d = Σ_i (e i / Σ e) · S[i, d]                            (d < 1024)

  from `h = r = 0`, `c = 0`. The result row is the score of the FOURTH step's `h'`. Only the first 1024 of the 2048 hidden
  units enter `h'`; the others reach the next step through `c'` alone. `σ` is the logistic function `1 / (1 + e^(-t))`.

  Nothing here needs a finite value: the only laws used against this text are that addition of extended reals commutes
  and associates, and that a sum over 2048 positions is the sum over its two halves (`sum_halves`).
-/
import Idealize.ShloMosaic.PureOps.Ideal
import Idealize.ShloMosaic.PureOps.Ideal.Laws

noncomputable section

open scoped BigOperators

namespace Cert.Spec

open Idealize.ShloMosaic

/-- The words of `0.0` and of `-∞`, read as extended reals. Both programs splat these same words, so no proof evaluates
    them. -/
abbrev zero : EReal := Ideal.ofBits .f32 0x00000000#32
abbrev negInf : EReal := Ideal.ofBits .f32 0xFF800000#32

/-- Position `k` of the first half, and of the second half, of a recurrent input of width 2048 = 1024 + 1024. -/
def lo (k : Fin 1024) : Fin 2048 := ⟨k.val, by omega⟩
def hi (k : Fin 1024) : Fin 2048 := ⟨1024 + k.val, by omega⟩
/-- Position `j` of gate `q` (0 input, 1 forget, 2 candidate, 3 output) among the 8192 = 4 · 2048 pre-activations. -/
def gateIx (q : Fin 4) (j : Fin 2048) : Fin 8192 := ⟨2048 * q.val + j.val, by omega⟩

theorem lo_val (k : Fin 1024) : (lo k).val = k.val := rfl
theorem hi_val (k : Fin 1024) : (hi k).val = 1024 + k.val := rfl
theorem gateIx_val (q : Fin 4) (j : Fin 2048) : (gateIx q j).val = 2048 * q.val + j.val := rfl

/-- A sum over 2048 positions is the sum over the first 1024 plus the sum over the last 1024. -/
theorem sum_halves {M : Type*} [AddCommMonoid M] (f : Fin 2048 → M) :
    ∑ k, f k = ∑ k : Fin 1024, f (lo k) + ∑ k : Fin 1024, f (hi k) :=
  Fin.sum_univ_add (a := 1024) (b := 1024) f

section Row

variable (wih : Fin 8192 → Fin 1024 → EReal) (whh : Fin 8192 → Fin 2048 → EReal) (bi bh : Fin 8192 → EReal)
  (S : Fin 512 → Fin 1024 → EReal)

/-- The 8192 gate pre-activations of a row. -/
def gates (x h r : Fin 1024 → EReal) (n : Fin 8192) : EReal :=
  (∑ k, x k * wih n k) + ((∑ k, h k * whh n (lo k)) + (∑ k, r k * whh n (hi k))) + bi n + bh n

/-- The new cell state: forget gate times the old state, plus input gate times candidate. -/
def cell (g : Fin 8192 → EReal) (c : Fin 2048 → EReal) (j : Fin 2048) : EReal :=
  Ideal.logistic (g (gateIx 1 j)) * c j + Ideal.logistic (g (gateIx 0 j)) * Ideal.tanh (g (gateIx 2 j))

/-- The new attention query: the row plus the first 1024 hidden units (output gate times `tanh` of the new cell state). -/
def hid (x : Fin 1024 → EReal) (g : Fin 8192 → EReal) (c : Fin 2048 → EReal) (k : Fin 1024) : EReal :=
  x k + Ideal.logistic (g (gateIx 3 (lo k))) * Ideal.tanh (c (lo k))

/-- The query's inner product with each support row. -/
def score (h : Fin 1024 → EReal) (i : Fin 512) : EReal := ∑ k, h k * S i k

/-- A score row's maximum, as both programs take it: the fold of `max` from `-∞`, then once more against `-∞`. -/
def rowMax (s : Fin 512 → EReal) : EReal := max negInf ((Finset.univ : Finset (Fin 512)).fold max negInf s)

/-- The unnormalised attention weights. -/
def expo (s : Fin 512 → EReal) (i : Fin 512) : EReal := Ideal.exp (s i - rowMax s)

/-- The read-out: the support rows averaged with the normalised weights. -/
def attn (e : Fin 512 → EReal) (d : Fin 1024) : EReal := ∑ i, Ideal.div (e i) (∑ i', e i') * S i d

/-- What a row carries from one step to the next. -/
structure State where
  h : Fin 1024 → EReal
  r : Fin 1024 → EReal
  c : Fin 2048 → EReal

/-- Before the first step everything is the zero word. -/
def init : State := ⟨fun _ => zero, fun _ => zero, fun _ => zero⟩

/-- One step. -/
def next (x : Fin 1024 → EReal) (σ : State) : State :=
  ⟨hid x (gates wih whh bi bh x σ.h σ.r) (cell (gates wih whh bi bh x σ.h σ.r) σ.c),
   attn S (expo (score S (hid x (gates wih whh bi bh x σ.h σ.r) (cell (gates wih whh bi bh x σ.h σ.r) σ.c)))),
   cell (gates wih whh bi bh x σ.h σ.r) σ.c⟩

/-- The result row: the score of the query the fourth step leaves. -/
def out (x : Fin 1024 → EReal) : Fin 512 → EReal :=
  score S (next wih whh bi bh S x (next wih whh bi bh S x (next wih whh bi bh S x (next wih whh bi bh S x init)))).h

end Row

end Cert.Spec

end
-- ==== Proof.KernelStep.lean ====
/-
  STEP BY STEP THROUGH ONE BLOCK OF 128 ROWS: what the second kernel leaves in its output block, row by row.

  The body works on a block of 128 query rows `x0`, the same rows of the hoisted input product `x1`
  (`x · W_ihᵀ + (b_ih + b_hh)`, made by the first kernel), the two halves `x2`, `x3` of `W_hhᵀ`, the support set `x4` and its
  transpose `x5`. Every operation of the body is either pointwise, or a product with a matrix on the right, or a
  reduction along a row; so row `p` of every intermediate depends on row `p` of `x0` and `x1` only, and is the
  corresponding quantity of `Cert.Spec` for that row.
-/
import proofs.«113116_j86131274154742_2_alg».proof.Proof.Gen.KernelIdeal.Frame
import proofs.«113116_j86131274154742_2_alg».proof.Proof.Spec
import proofs.«113116_j86131274154742_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Stage2

open Cert.KernelIdeal Cert.KernelIdeal.Gen Idealize.ShloMosaic Idealize.ShloMosaic.ValueIdx

/-! ## The stages of one step, on a block of 128 rows

Each is the composition of the body's operations for that stage, over the block values it reads. -/

/-- The gate pre-activations: the hoisted input part, plus the query times the first half of `W_hhᵀ`, plus the read-out
    times the second half. -/
def kGates (cst : FVec Ideal S128x8192 .f32) (Wh Wr : FVec Ideal S1024x8192 .bf16) (h r : FVec Ideal S128x1024 .f32) :
    FVec Ideal S128x8192 .f32 :=
  addf (addf cst (matmul dot_S128x1024_S1024x8192_S128x8192_1_0_0_1_n_n none (truncf .bf16 h bitsLt_bf16_f32) Wh
      (constant S128x8192 .f32 0x00000000#32)))
    (matmul dot_S128x1024_S1024x8192_S128x8192_1_0_0_1_n_n none (truncf .bf16 r bitsLt_bf16_f32) Wr
      (constant S128x8192 .f32 0x00000000#32))

/-- The new cell state from the four quarters of the gates and the old cell state. -/
def kCell (g : FVec Ideal S128x8192 .f32) (c : FVec Ideal S128x2048 .f32) : FVec Ideal S128x2048 .f32 :=
  addf (mulf (logistic (extractStridedSlice S128x2048 ![0, 2048] g slices_S128x8192_o0_2048_S128x2048)) c)
    (mulf (logistic (extractStridedSlice S128x2048 ![0, 0] g slices_S128x8192_o0_0_S128x2048))
      (tanh (extractStridedSlice S128x2048 ![0, 4096] g slices_S128x8192_o0_4096_S128x2048)))

/-- The new query: the rows plus the first 1024 hidden units. -/
def kHid (x : FVec Ideal S128x1024 .f32) (g : FVec Ideal S128x8192 .f32) (c' : FVec Ideal S128x2048 .f32) :
    FVec Ideal S128x1024 .f32 :=
  addf x (extractStridedSlice S128x1024 ![0, 0]
    (mulf (logistic (extractStridedSlice S128x2048 ![0, 6144] g slices_S128x8192_o0_6144_S128x2048)) (tanh c'))
    slices_S128x2048_o0_0_S128x1024)

/-- The scores: the query times the transposed support set. -/
def kScore (h : FVec Ideal S128x1024 .f32) (ST : FVec Ideal S1024x512 .f32) : FVec Ideal S128x512 .f32 :=
  matmul dot_S128x1024_S1024x512_S128x512_1_0_0_1_n_n (some .fp32) h ST (constant S128x512 .f32 0x00000000#32)

/-- The row maxima, kept as a column. -/
def kMax (s : FVec Ideal S128x512 .f32) : FVec Ideal S128x1 .f32 :=
  shapeCast S128x1 (maximumf (broadcast S128 (Scalar.ofBits .f32 0xFF800000#32))
    (multiReduction .maximumf [1] S128 s 0xFF800000#32 reduces_S128x512_S128 (.inl rfl) rfl)) shapeCasts_S128_S128x1

/-- The unnormalised weights. -/
def kExp (s : FVec Ideal S128x512 .f32) (mx : FVec Ideal S128x1 .f32) : FVec Ideal S128x512 .f32 :=
  exp (subf s (broadcastTo S128x512 mx broadcasts_S128x1_S128x512))

/-- The read-out: the weights over their row sums, times the support set. -/
def kAttn (e : FVec Ideal S128x512 .f32) (Sm : FVec Ideal S512x1024 .f32) : FVec Ideal S128x1024 .f32 :=
  matmul dot_S128x512_S512x1024_S128x1024_1_0_0_1_n_n (some .fp32)
    (divf e (broadcastTo S128x512 (shapeCast S128x1
      (multiReduction .add [1] S128 e 0x00000000#32 reduces_S128x512_S128 (.inl rfl) rfl) shapeCasts_S128_S128x1)
      broadcasts_S128x1_S128x512))
    Sm (constant S128x1024 .f32 0x00000000#32)

/-! ## Layout operations at a row and a column -/

/-- Quarter `q` of the gates at `(p, j)` is the gates at `(p, 2048 q + j)`. -/
theorem slice_gate (g : FVec Ideal S128x8192 .f32) (o : Nat) (h : S128x8192.Slices ![0, o] S128x2048) (q : Fin 4)
    (ho : o = 2048 * q.val) (p : Fin 128) (j : Fin 2048) :
    extractStridedSlice S128x2048 ![0, o] g h (ix2 p j) = g (ix2 p (Spec.gateIx q j)) :=
  slice2_axis1_apply o g h p j _ (by rw [Spec.gateIx_val, ho])

/-- The first half of a row of 2048. -/
theorem slice_lo (v : FVec Ideal S128x2048 .f32) (h : S128x2048.Slices ![0, 0] S128x1024) (p : Fin 128) (k : Fin 1024) :
    extractStridedSlice S128x1024 ![0, 0] v h (ix2 p k) = v (ix2 p (Spec.lo k)) :=
  slice2_axis1_apply 0 v h p k _ (by rw [Spec.lo_val, Nat.zero_add])

/-- A vector of 128 kept as a column reads, at `(p, u)`, the vector at `p`. -/
theorem col_apply (v : FVec Ideal S128 .f32) (h : S128.ShapeCasts S128x1) (p : Fin 128) (u : Fin 1) :
    shapeCast S128x1 v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column spread over 512 columns reads, at `(p, q)`, the column at `p`. -/
theorem spread_apply (v : FVec Ideal S128x1 .f32) (h : S128x1.Broadcasts S128x512) (p : Fin 128) (q : Fin 512) :
    broadcastTo S128x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The stages at a row and a column -/

theorem kCell_apply (g : FVec Ideal S128x8192 .f32) (c : FVec Ideal S128x2048 .f32) (p : Fin 128) (j : Fin 2048) :
    kCell g c (ix2 p j) = Ideal.logistic (g (ix2 p (Spec.gateIx 1 j))) * c (ix2 p j)
      + Ideal.logistic (g (ix2 p (Spec.gateIx 0 j))) * Ideal.tanh (g (ix2 p (Spec.gateIx 2 j))) := by
  unfold kCell
  show Ideal.logistic (extractStridedSlice S128x2048 ![0, 2048] g slices_S128x8192_o0_2048_S128x2048 (ix2 p j)) * c (ix2 p j)
      + Ideal.logistic (extractStridedSlice S128x2048 ![0, 0] g slices_S128x8192_o0_0_S128x2048 (ix2 p j))
        * Ideal.tanh (extractStridedSlice S128x2048 ![0, 4096] g slices_S128x8192_o0_4096_S128x2048 (ix2 p j)) = _
  rw [slice_gate g 2048 _ 1 rfl, slice_gate g 0 _ 0 rfl, slice_gate g 4096 _ 2 rfl]

theorem kHid_apply (x : FVec Ideal S128x1024 .f32) (g : FVec Ideal S128x8192 .f32) (c' : FVec Ideal S128x2048 .f32)
    (p : Fin 128) (k : Fin 1024) :
    kHid x g c' (ix2 p k) = x (ix2 p k)
      + Ideal.logistic (g (ix2 p (Spec.gateIx 3 (Spec.lo k)))) * Ideal.tanh (c' (ix2 p (Spec.lo k))) := by
  unfold kHid
  show x (ix2 p k) + extractStridedSlice S128x1024 ![0, 0]
      (mulf (logistic (extractStridedSlice S128x2048 ![0, 6144] g slices_S128x8192_o0_6144_S128x2048)) (tanh c'))
      slices_S128x2048_o0_0_S128x1024 (ix2 p k) = _
  rw [slice_lo]
  show x (ix2 p k) + Ideal.logistic (extractStridedSlice S128x2048 ![0, 6144] g slices_S128x8192_o0_6144_S128x2048
      (ix2 p (Spec.lo k))) * Ideal.tanh (c' (ix2 p (Spec.lo k))) = _
  rw [slice_gate g 6144 _ 3 rfl]

/-- A product into the zero splat at `(p, n)` is the sum over the contracted coordinate: gates. -/
theorem mmG_apply (a : FVec Ideal S128x1024 .bf16) (W : FVec Ideal S1024x8192 .bf16) (p : Fin 128) (n : Fin 8192) :
    matmul dot_S128x1024_S1024x8192_S128x8192_1_0_0_1_n_n none a W (constant S128x8192 .f32 0x00000000#32) (ix2 p n)
      = ∑ k : Fin 1024, a (ix2 p k) * W (ix2 k n) :=
  (Ideal.matmul_constant_zero_apply dot_S128x1024_S1024x8192_S128x8192_1_0_0_1_n_n none a W (ix2 p n)).trans
    (Cert.Lib.sum_contr_plain dot_S128x1024_S1024x8192_S128x8192_1_0_0_1_n_n rfl rfl rfl rfl rfl rfl
      (fun i j => a i * W j) p n)

/-- The same for the scores. -/
theorem mmS_apply (a : FVec Ideal S128x1024 .f32) (W : FVec Ideal S1024x512 .f32) (p : Fin 128) (n : Fin 512) :
    matmul dot_S128x1024_S1024x512_S128x512_1_0_0_1_n_n (some .fp32) a W (constant S128x512 .f32 0x00000000#32) (ix2 p n)
      = ∑ k : Fin 1024, a (ix2 p k) * W (ix2 k n) :=
  (Ideal.matmul_constant_zero_apply dot_S128x1024_S1024x512_S128x512_1_0_0_1_n_n (some .fp32) a W (ix2 p n)).trans
    (Cert.Lib.sum_contr_plain dot_S128x1024_S1024x512_S128x512_1_0_0_1_n_n rfl rfl rfl rfl rfl rfl
      (fun i j => a i * W j) p n)

/-- The same for the read-out. -/
theorem mmA_apply (a : FVec Ideal S128x512 .f32) (W : FVec Ideal S512x1024 .f32) (p : Fin 128) (n : Fin 1024) :
    matmul dot_S128x512_S512x1024_S128x1024_1_0_0_1_n_n (some .fp32) a W (constant S128x1024 .f32 0x00000000#32) (ix2 p n)
      = ∑ k : Fin 512, a (ix2 p k) * W (ix2 k n) :=
  (Ideal.matmul_constant_zero_apply dot_S128x512_S512x1024_S128x1024_1_0_0_1_n_n (some .fp32) a W (ix2 p n)).trans
    (Cert.Lib.sum_contr_plain dot_S128x512_S512x1024_S128x1024_1_0_0_1_n_n rfl rfl rfl rfl rfl rfl
      (fun i j => a i * W j) p n)

theorem kGates_apply (cst : FVec Ideal S128x8192 .f32) (Wh Wr : FVec Ideal S1024x8192 .bf16) (h r : FVec Ideal S128x1024 .f32)
    (p : Fin 128) (n : Fin 8192) :
    kGates cst Wh Wr h r (ix2 p n)
      = (cst (ix2 p n) + ∑ k : Fin 1024, h (ix2 p k) * Wh (ix2 k n)) + ∑ k : Fin 1024, r (ix2 p k) * Wr (ix2 k n) := by
  unfold kGates
  show (cst (ix2 p n) + matmul dot_S128x1024_S1024x8192_S128x8192_1_0_0_1_n_n none (truncf .bf16 h bitsLt_bf16_f32) Wh
        (constant S128x8192 .f32 0x00000000#32) (ix2 p n))
      + matmul dot_S128x1024_S1024x8192_S128x8192_1_0_0_1_n_n none (truncf .bf16 r bitsLt_bf16_f32) Wr
        (constant S128x8192 .f32 0x00000000#32) (ix2 p n) = _
  rw [mmG_apply, mmG_apply]
  rfl

theorem kScore_apply (h : FVec Ideal S128x1024 .f32) (ST : FVec Ideal S1024x512 .f32) (p : Fin 128) (i : Fin 512) :
    kScore h ST (ix2 p i) = ∑ k : Fin 1024, h (ix2 p k) * ST (ix2 k i) :=
  mmS_apply h ST p i

/-- The reduction's source index at `p` and column `i` is `(p, i)`. -/
theorem lift_row (h : S128x512.Reduces [1] S128) (p : Fin 128) (i : Fin 512) : h.lift (ix1 p) i = ix2 p i := by
  funext a
  match a with
  | ⟨0, _⟩ => exact Fin.ext rfl
  | ⟨1, _⟩ => exact Fin.ext rfl

theorem kMax_apply (s : FVec Ideal S128x512 .f32) (p : Fin 128) (u : Fin 1) :
    kMax s (ix2 p u) = Spec.rowMax (fun i => s (ix2 p i)) := by
  unfold kMax
  rw [col_apply]
  show max (Ideal.ofBits .f32 0xFF800000#32)
    (multiReduction .maximumf [1] S128 s 0xFF800000#32 reduces_S128x512_S128 (.inl rfl) rfl (ix1 p)) = _
  refine congrArg (max (Ideal.ofBits .f32 0xFF800000#32)) ?_
  refine (Ideal.multiReduction_maximumf_single s _ reduces_S128x512_S128 (.inl rfl) rfl (ix1 p)).trans ?_
  show (Finset.univ : Finset (Fin 512)).fold max (Ideal.ofBits .f32 0xFF800000#32) (s ∘ reduces_S128x512_S128.lift (ix1 p)) = _
  have hrow : (s ∘ reduces_S128x512_S128.lift (ix1 p)) = fun i : Fin 512 => s (ix2 p i) :=
    funext fun i => congrArg s (lift_row _ p i)
  rw [hrow]
  rfl

theorem kExp_apply (s : FVec Ideal S128x512 .f32) (mx : FVec Ideal S128x1 .f32) (p : Fin 128) (i : Fin 512) :
    kExp s mx (ix2 p i) = Ideal.exp (s (ix2 p i) - mx (ix2 p (0 : Fin 1))) := by
  unfold kExp
  show Ideal.exp (s (ix2 p i) - broadcastTo S128x512 mx broadcasts_S128x1_S128x512 (ix2 p i)) = _
  rw [spread_apply]

theorem kAttn_apply (e : FVec Ideal S128x512 .f32) (Sm : FVec Ideal S512x1024 .f32) (p : Fin 128) (d : Fin 1024) :
    kAttn e Sm (ix2 p d) = ∑ i : Fin 512, Ideal.div (e (ix2 p i)) (∑ i' : Fin 512, e (ix2 p i')) * Sm (ix2 i d) := by
  unfold kAttn
  rw [mmA_apply]
  refine Finset.sum_congr rfl fun i _ => ?_
  refine congrArg (· * Sm (ix2 i d)) ?_
  show Ideal.div (e (ix2 p i)) (broadcastTo S128x512 (shapeCast S128x1
      (multiReduction .add [1] S128 e 0x00000000#32 reduces_S128x512_S128 (.inl rfl) rfl) shapeCasts_S128_S128x1)
      broadcasts_S128x1_S128x512 (ix2 p i)) = _
  rw [spread_apply, col_apply]
  refine congrArg (Ideal.div (e (ix2 p i))) ?_
  refine (Ideal.multiReduction_add_single e _ reduces_S128x512_S128 (.inl rfl) rfl (ix1 p)).trans ?_
  show ∑ k : Fin 512, e (reduces_S128x512_S128.lift (ix1 p) k) = _
  refine Finset.sum_congr rfl fun k _ => ?_
  rw [lift_row]

/-! ## The stages of a row against `Cert.Spec`

Fixed: the block of query rows `x0`, the hoisted product `x1`, the two halves `x2`, `x3` of `W_hhᵀ`, the support set `x4` and
its transpose `x5`, and a row `p`. A block value `v` "is `f` on row `p`" when `v (ix2 p k) = f k` for every column `k`. -/

section Row

variable (x0 : FVec Ideal S128x1024 .f32) (x1 : FVec Ideal S128x8192 .f32) (x2 x3 : FVec Ideal S1024x8192 .bf16)
  (x4 : FVec Ideal S512x1024 .f32) (x5 : FVec Ideal S1024x512 .f32)
  (wih : Fin 8192 → Fin 1024 → EReal) (whh : Fin 8192 → Fin 2048 → EReal) (bi bh : Fin 8192 → EReal) (p : Fin 128)

/-- The two groupings of the five summands of a gate pre-activation. -/
theorem add_regroup (A b1 b2 H R : EReal) : A + (b1 + b2) + H + R = A + (H + R) + b1 + b2 := by
  ac_rfl

/-- The gates of a row: the kernel adds the three parts as `(input part + h-part) + r-part` with the two biases inside the
    input part, `Cert.Spec` as `input + (h-part + r-part) + b_ih + b_hh`; addition commutes and associates. -/
theorem gates_row (h1 : ∀ n : Fin 8192, x1 (ix2 p n) = (∑ k : Fin 1024, x0 (ix2 p k) * wih n k) + (bi n + bh n))
    (h2 : ∀ (k : Fin 1024) (n : Fin 8192), x2 (ix2 k n) = whh n (Spec.lo k))
    (h3 : ∀ (k : Fin 1024) (n : Fin 8192), x3 (ix2 k n) = whh n (Spec.hi k))
    (h r : FVec Ideal S128x1024 .f32) (hrow rrow : Fin 1024 → EReal)
    (hh : ∀ k, h (ix2 p k) = hrow k) (hr : ∀ k, r (ix2 p k) = rrow k) (n : Fin 8192) :
    kGates x1 x2 x3 h r (ix2 p n) = Spec.gates wih whh bi bh (fun k => x0 (ix2 p k)) hrow rrow n := by
  rw [kGates_apply, h1 n]
  have eh : ∑ k : Fin 1024, h (ix2 p k) * x2 (ix2 k n) = ∑ k, hrow k * whh n (Spec.lo k) :=
    Finset.sum_congr rfl fun k _ => by rw [hh k, h2 k n]
  have er : ∑ k : Fin 1024, r (ix2 p k) * x3 (ix2 k n) = ∑ k, rrow k * whh n (Spec.hi k) :=
    Finset.sum_congr rfl fun k _ => by rw [hr k, h3 k n]
  rw [eh, er]
  exact add_regroup _ _ _ _ _

theorem cell_row (g : FVec Ideal S128x8192 .f32) (c : FVec Ideal S128x2048 .f32) (grow : Fin 8192 → EReal)
    (crow : Fin 2048 → EReal) (hg : ∀ n, g (ix2 p n) = grow n) (hc : ∀ j, c (ix2 p j) = crow j) (j : Fin 2048) :
    kCell g c (ix2 p j) = Spec.cell grow crow j := by
  rw [kCell_apply, hg, hg, hg, hc]
  rfl

theorem hid_row (g : FVec Ideal S128x8192 .f32) (c' : FVec Ideal S128x2048 .f32) (grow : Fin 8192 → EReal)
    (crow : Fin 2048 → EReal) (hg : ∀ n, g (ix2 p n) = grow n) (hc : ∀ j, c' (ix2 p j) = crow j) (k : Fin 1024) :
    kHid x0 g c' (ix2 p k) = Spec.hid (fun k => x0 (ix2 p k)) grow crow k := by
  rw [kHid_apply, hg, hc]
  rfl

theorem score_row (h5 : ∀ (k : Fin 1024) (j : Fin 512), x5 (ix2 k j) = x4 (ix2 j k))
    (h : FVec Ideal S128x1024 .f32) (hrow : Fin 1024 → EReal) (hh : ∀ k, h (ix2 p k) = hrow k) (i : Fin 512) :
    kScore h x5 (ix2 p i) = Spec.score (fun j k => x4 (ix2 j k)) hrow i := by
  rw [kScore_apply]
  exact Finset.sum_congr rfl fun k _ => by rw [hh k, h5 k i]

theorem read_row (s : FVec Ideal S128x512 .f32) (srow : Fin 512 → EReal) (hs : ∀ i, s (ix2 p i) = srow i) (d : Fin 1024) :
    kAttn (kExp s (kMax s)) x4 (ix2 p d) = Spec.attn (fun j k => x4 (ix2 j k)) (Spec.expo srow) d := by
  have hrow : (fun i => s (ix2 p i)) = srow := funext hs
  have he : ∀ i, kExp s (kMax s) (ix2 p i) = Spec.expo srow i := fun i => by
    rw [kExp_apply, kMax_apply, hrow, hs i]
    rfl
  rw [kAttn_apply]
  unfold Spec.attn
  refine Finset.sum_congr rfl fun i _ => ?_
  rw [he i, Finset.sum_congr rfl fun i' _ => he i']

/-- The gates of the next step, from this step's gates and the cell state before it. -/
def kNext (g : FVec Ideal S128x8192 .f32) (c : FVec Ideal S128x2048 .f32) : FVec Ideal S128x8192 .f32 :=
  kGates x1 x2 x3 (kHid x0 g (kCell g c))
    (kAttn (kExp (kScore (kHid x0 g (kCell g c)) x5) (kMax (kScore (kHid x0 g (kCell g c)) x5))) x4)

/-- ONE STEP on row `p`: if the gates block holds the gates of the row's state `σ` and the cell block its cell state,
    then the new cell block, the new query and the next gates are those of `Spec.next … σ`. -/
theorem step_row (h1 : ∀ n : Fin 8192, x1 (ix2 p n) = (∑ k : Fin 1024, x0 (ix2 p k) * wih n k) + (bi n + bh n))
    (h2 : ∀ (k : Fin 1024) (n : Fin 8192), x2 (ix2 k n) = whh n (Spec.lo k))
    (h3 : ∀ (k : Fin 1024) (n : Fin 8192), x3 (ix2 k n) = whh n (Spec.hi k))
    (h5 : ∀ (k : Fin 1024) (j : Fin 512), x5 (ix2 k j) = x4 (ix2 j k))
    (g : FVec Ideal S128x8192 .f32) (c : FVec Ideal S128x2048 .f32) (σ : Spec.State)
    (hg : ∀ n, g (ix2 p n) = Spec.gates wih whh bi bh (fun k => x0 (ix2 p k)) σ.h σ.r n)
    (hc : ∀ j, c (ix2 p j) = σ.c j) :
    (∀ j, kCell g c (ix2 p j) = (Spec.next wih whh bi bh (fun j k => x4 (ix2 j k)) (fun k => x0 (ix2 p k)) σ).c j)
    ∧ (∀ k, kHid x0 g (kCell g c) (ix2 p k)
        = (Spec.next wih whh bi bh (fun j k => x4 (ix2 j k)) (fun k => x0 (ix2 p k)) σ).h k)
    ∧ (∀ n, kNext x0 x1 x2 x3 x4 x5 g c (ix2 p n)
        = Spec.gates wih whh bi bh (fun k => x0 (ix2 p k))
            (Spec.next wih whh bi bh (fun j k => x4 (ix2 j k)) (fun k => x0 (ix2 p k)) σ).h
            (Spec.next wih whh bi bh (fun j k => x4 (ix2 j k)) (fun k => x0 (ix2 p k)) σ).r n) := by
  have hC : ∀ j, kCell g c (ix2 p j) = (Spec.next wih whh bi bh (fun j k => x4 (ix2 j k)) (fun k => x0 (ix2 p k)) σ).c j :=
    fun j => cell_row p g c _ _ hg hc j
  have hH : ∀ k, kHid x0 g (kCell g c) (ix2 p k)
      = (Spec.next wih whh bi bh (fun j k => x4 (ix2 j k)) (fun k => x0 (ix2 p k)) σ).h k :=
    fun k => hid_row x0 p g (kCell g c) _ _ hg hC k
  refine ⟨hC, hH, fun n => ?_⟩
  unfold kNext
  refine gates_row x0 x1 x2 x3 wih whh bi bh p h1 h2 h3 _ _ _ _ hH (fun d => ?_) n
  exact read_row x4 p _ _ (fun i => score_row x4 x5 p h5 _ _ hH i) d

end Row

/-! ## The body's values are these stages composed

The body's arithmetic is cut by position into named pieces; each piece is one of the stages above applied to the
pieces before it. -/

theorem hz : (![0, 0] : Fin 2 → Nat) = fun _ => 0 := funext fun a => by fin_cases a <;> rfl

/-- The zero blocks the first step starts from. -/
abbrev Z1 : FVec Ideal S128x1024 .f32 := broadcast S128x1024 (Scalar.ofBits .f32 0x00000000#32)
abbrev Z2 : FVec Ideal S128x2048 .f32 := broadcast S128x2048 (Scalar.ofBits .f32 0x00000000#32)

theorem pay1_eq (v : Vec Ideal S128x8192 .f32) : k1_pay1 (F := Ideal) v = v := by
  unfold k1_pay1; exact shapeCast_self _ _
theorem pay2_eq (v : Vec Ideal S1024x8192 .bf16) : k1_pay2 (F := Ideal) v = v := by
  unfold k1_pay2; exact shapeCast_self _ _
theorem pay3_eq (v : Vec Ideal S1024x8192 .bf16) : k1_pay3 (F := Ideal) v = v := by
  unfold k1_pay3; exact shapeCast_self _ _
theorem pay4_eq (v : Vec Ideal S1024x512 .f32) : k1_pay4 (F := Ideal) v = v := by
  unfold k1_pay4; exact shapeCast_self _ _

theorem pay5_eq (v1 : Vec Ideal S128x8192 .f32) (v3 v5 : Vec Ideal S1024x8192 .bf16) :
    k1_pay5 (F := Ideal) v1 v3 v5 = kGates v1 v3 v5 Z1 Z1 := by
  unfold k1_pay5
  rw [pay1_eq, pay2_eq, pay3_eq]
  rfl

theorem pay6_eq (v1 : Vec Ideal S128x8192 .f32) (v3 v5 : Vec Ideal S1024x8192 .bf16) :
    k1_pay6 (F := Ideal) v1 v3 v5 = kCell (k1_pay5 v1 v3 v5) Z2 := by
  unfold k1_pay6
  rfl

theorem pay7_eq (v0 : Vec Ideal S128x1024 .f32) (v1 : Vec Ideal S128x8192 .f32) (v3 v5 : Vec Ideal S1024x8192 .bf16) :
    k1_pay7 (F := Ideal) v0 v1 v3 v5 = kHid v0 (k1_pay5 v1 v3 v5) (k1_pay6 v1 v3 v5) := by
  unfold k1_pay7
  rfl

theorem pay8_eq (v0 : Vec Ideal S128x1024 .f32) (v1 : Vec Ideal S128x8192 .f32) (v3 v5 : Vec Ideal S1024x8192 .bf16)
    (v8 : Vec Ideal S1024x512 .f32) :
    k1_pay8 (F := Ideal) v0 v1 v3 v5 v8 = kScore (k1_pay7 v0 v1 v3 v5) v8 := by
  unfold k1_pay8
  rw [pay4_eq]
  rfl

theorem pay9_eq (v0 : Vec Ideal S128x1024 .f32) (v1 : Vec Ideal S128x8192 .f32) (v3 v5 : Vec Ideal S1024x8192 .bf16)
    (v8 : Vec Ideal S1024x512 .f32) :
    k1_pay9 (F := Ideal) v0 v1 v3 v5 v8 = kMax (k1_pay8 v0 v1 v3 v5 v8) := by
  unfold k1_pay9
  rfl

theorem pay10_eq (v2 : FVec Ideal S128x8192 .f32) (v4 v6 : FVec Ideal S1024x8192 .bf16) (v7 : Vec Ideal S512x1024 .f32)
    (v33 : FVec Ideal S128x1024 .f32) (v34 : FVec Ideal S128x512 .f32) (v38 : FVec Ideal S128x1 .f32) :
    k1_pay10 (F := Ideal) v2 v4 v6 v7 v33 v34 v38 = kGates v2 v4 v6 v33 (kAttn (kExp v34 v38) v7) := by
  unfold k1_pay10
  rfl

theorem pay11_eq (v2 : FVec Ideal S128x8192 .f32) (v4 v6 : FVec Ideal S1024x8192 .bf16) (v7 : Vec Ideal S512x1024 .f32)
    (v28 : FVec Ideal S128x2048 .f32) (v33 : FVec Ideal S128x1024 .f32) (v34 : FVec Ideal S128x512 .f32)
    (v38 : FVec Ideal S128x1 .f32) :
    k1_pay11 (F := Ideal) v2 v4 v6 v7 v28 v33 v34 v38 = kCell (k1_pay10 v2 v4 v6 v7 v33 v34 v38) v28 := by
  unfold k1_pay11
  rfl

theorem pay12_eq (v0 : Vec Ideal S128x1024 .f32) (v2 : FVec Ideal S128x8192 .f32) (v4 v6 : FVec Ideal S1024x8192 .bf16)
    (v7 : Vec Ideal S512x1024 .f32) (v9 : FVec Ideal S1024x512 .f32) (v28 : FVec Ideal S128x2048 .f32)
    (v33 : FVec Ideal S128x1024 .f32) (v34 : FVec Ideal S128x512 .f32) (v38 : FVec Ideal S128x1 .f32) :
    k1_pay12 (F := Ideal) v0 v2 v4 v6 v7 v9 v28 v33 v34 v38
      = kNext v0 v2 v4 v6 v7 v9 (k1_pay10 v2 v4 v6 v7 v33 v34 v38) v28 := by
  unfold k1_pay12
  rw [pay11_eq]
  rfl

theorem pay13_eq (v0 : Vec Ideal S128x1024 .f32) (v2 : FVec Ideal S128x8192 .f32) (v4 v6 : FVec Ideal S1024x8192 .bf16)
    (v7 : Vec Ideal S512x1024 .f32) (v9 : FVec Ideal S1024x512 .f32) (v28 : FVec Ideal S128x2048 .f32)
    (v33 : FVec Ideal S128x1024 .f32) (v34 : FVec Ideal S128x512 .f32) (v38 : FVec Ideal S128x1 .f32) :
    k1_pay13 (F := Ideal) v0 v2 v4 v6 v7 v9 v28 v33 v34 v38
      = extractStridedSlice S128x2048 ![0, 0] (k1_pay12 v0 v2 v4 v6 v7 v9 v28 v33 v34 v38)
          slices_S128x8192_o0_0_S128x2048 := by
  unfold k1_pay13
  rfl

theorem pay14_eq (v0 : Vec Ideal S128x1024 .f32) (v2 : FVec Ideal S128x8192 .f32) (v4 v6 : FVec Ideal S1024x8192 .bf16)
    (v7 : Vec Ideal S512x1024 .f32) (v9 : FVec Ideal S1024x512 .f32) (v62 : FVec Ideal S128x2048 .f32)
    (v86 : FVec Ideal S128x8192 .f32) :
    k1_pay14 (F := Ideal) v0 v2 v4 v6 v7 v9 v62 v86
        (extractStridedSlice S128x2048 ![0, 0] v86 slices_S128x8192_o0_0_S128x2048)
      = kScore (kHid v0 (kNext v0 v2 v4 v6 v7 v9 v86 v62)
          (kCell (kNext v0 v2 v4 v6 v7 v9 v86 v62) (kCell v86 v62))) v9 := by
  unfold k1_pay14
  rfl

/-! ## The four steps on the block -/

section Chain

variable (x0 : Vec Ideal S128x1024 .f32) (x1 : Vec Ideal S128x8192 .f32) (x2 x3 : Vec Ideal S1024x8192 .bf16)
  (x4 : Vec Ideal S512x1024 .f32) (x5 : Vec Ideal S1024x512 .f32)

/-- The gates of the first step, and the cell state it leaves. -/
def kG1 : FVec Ideal S128x8192 .f32 := kGates x1 x2 x3 Z1 Z1
def kC1 : FVec Ideal S128x2048 .f32 := kCell (kG1 x1 x2 x3) Z2
/-- Of the second. -/
def kG2 : FVec Ideal S128x8192 .f32 := kNext x0 x1 x2 x3 x4 x5 (kG1 x1 x2 x3) Z2
def kC2 : FVec Ideal S128x2048 .f32 := kCell (kG2 x0 x1 x2 x3 x4 x5) (kC1 x1 x2 x3)
/-- Of the third. -/
def kG3 : FVec Ideal S128x8192 .f32 := kNext x0 x1 x2 x3 x4 x5 (kG2 x0 x1 x2 x3 x4 x5) (kC1 x1 x2 x3)
def kC3 : FVec Ideal S128x2048 .f32 := kCell (kG3 x0 x1 x2 x3 x4 x5) (kC2 x0 x1 x2 x3 x4 x5)
/-- The gates of the fourth, and the scores of the query it leaves: the output block. -/
def kG4 : FVec Ideal S128x8192 .f32 := kNext x0 x1 x2 x3 x4 x5 (kG3 x0 x1 x2 x3 x4 x5) (kC2 x0 x1 x2 x3 x4 x5)
def kOut : FVec Ideal S128x512 .f32 :=
  kScore (kHid x0 (kG4 x0 x1 x2 x3 x4 x5) (kCell (kG4 x0 x1 x2 x3 x4 x5) (kC3 x0 x1 x2 x3 x4 x5))) x5

/-- The output block after the body: the whole-block loads read the blocks, the one whole-block store leaves its
    value, and that value is the four steps. -/
theorem out1_6_eq : out1_6 (F := Ideal) x0 x1 x2 x3 x4 x5 = kOut x0 x1 x2 x3 x4 x5 := by
  unfold out1_6
  rw [View.canon_unit_zero hz]
  simp only [View.ld_unit_zero (S := S128x1024) hz, View.ld_unit_zero (S := S128x8192) hz,
    View.ld_unit_zero (S := S1024x8192) hz, View.ld_unit_zero (S := S512x1024) hz, View.ld_unit_zero (S := S1024x512) hz]
  rw [pay1_eq, pay2_eq, pay3_eq, pay4_eq]
  rw [pay13_eq, pay14_eq, pay12_eq, pay11_eq, pay10_eq, pay9_eq, pay8_eq, pay7_eq, pay6_eq, pay5_eq]
  rfl

end Chain

/-- Row `p` of the output block is the result row of `Cert.Spec` for row `p` of the query block, when the block of the
    hoisted product holds that row's input part of the gates (`h1`), the two weight blocks hold the two halves of
    `W_hh` transposed (`h2`, `h3`), and the last block is the support set transposed (`h5`). -/
theorem out1_6_apply (x0 : Vec Ideal S128x1024 .f32) (x1 : Vec Ideal S128x8192 .f32)
    (x2 x3 : Vec Ideal S1024x8192 .bf16) (x4 : Vec Ideal S512x1024 .f32) (x5 : Vec Ideal S1024x512 .f32)
    (wih : Fin 8192 → Fin 1024 → EReal) (whh : Fin 8192 → Fin 2048 → EReal) (bi bh : Fin 8192 → EReal)
    (p : Fin 128) (i : Fin 512)
    (h1 : ∀ n : Fin 8192, x1 (ix2 p n) = (∑ k : Fin 1024, x0 (ix2 p k) * wih n k) + (bi n + bh n))
    (h2 : ∀ (k : Fin 1024) (n : Fin 8192), x2 (ix2 k n) = whh n (Spec.lo k))
    (h3 : ∀ (k : Fin 1024) (n : Fin 8192), x3 (ix2 k n) = whh n (Spec.hi k))
    (h5 : ∀ (k : Fin 1024) (j : Fin 512), x5 (ix2 k j) = x4 (ix2 j k)) :
    out1_6 (F := Ideal) x0 x1 x2 x3 x4 x5 (ix2 p i)
      = Spec.out wih whh bi bh (fun j k => x4 (ix2 j k)) (fun k => x0 (ix2 p k)) i := by
  rw [out1_6_eq]
  have s0 := step_row x0 x1 x2 x3 x4 x5 wih whh bi bh p h1 h2 h3 h5 (kG1 x1 x2 x3) Z2 Spec.init
    (fun n => gates_row x0 x1 x2 x3 wih whh bi bh p h1 h2 h3 Z1 Z1 _ _ (fun _ => rfl) (fun _ => rfl) n) (fun _ => rfl)
  have s1 := step_row x0 x1 x2 x3 x4 x5 wih whh bi bh p h1 h2 h3 h5 (kG2 x0 x1 x2 x3 x4 x5) (kC1 x1 x2 x3) _ s0.2.2 s0.1
  have s2 := step_row x0 x1 x2 x3 x4 x5 wih whh bi bh p h1 h2 h3 h5 (kG3 x0 x1 x2 x3 x4 x5) (kC2 x0 x1 x2 x3 x4 x5) _
    s1.2.2 s1.1
  have s3 := step_row x0 x1 x2 x3 x4 x5 wih whh bi bh p h1 h2 h3 h5 (kG4 x0 x1 x2 x3 x4 x5) (kC3 x0 x1 x2 x3 x4 x5) _
    s2.2.2 s2.1
  exact score_row x4 x5 p h5 _ _ s3.2.1 i

end Cert.KernelIdeal.Stage2

end
-- ==== Proof.KernelScores.lean ====
/-
  THE SECOND KERNEL: the four steps, 128 query rows per grid point, and the program's result array.

  The launch runs over 16 points. Point `t` takes rows 128t … 128t + 127 of the queries and of the first kernel's
  product, and the whole of `W_hhᵀ`'s two halves, of the support set and of its transpose; it writes rows
  128t … 128t + 127 of the result. Each row of a block goes through the four steps by itself, so what point `t` writes at
  (p, i) is the result row of query row `128t + p`, at `i`. The sixteen blocks tile the [2048, 512] result.
-/
import proofs.«113116_j86131274154742_2_alg».proof.Proof.KernelHost
import proofs.«113116_j86131274154742_2_alg».proof.Proof.KernelRun
import proofs.«113116_j86131274154742_2_alg».proof.Proof.KernelStep

noncomputable section

open scoped BigOperators

namespace Cert.KernelIdeal.Hand

open Cert.KernelIdeal Cert.KernelIdeal.Gen Idealize.ShloMosaic Idealize.ShloMosaic.TcCoe Idealize.ShloMosaic.ValueIdx
  Idealize.SL.Sem
open Idealize.ShloMosaic.Pipeline (Dat)

section Launch

variable (V : (c : Dev nD) → (b : Ref sig .tc) → Buf (Elt Ideal) ((c : Thread nD τ).loc b)) (c : Dev nD)

/-- The index maps over the grid: the query block, the product's block and the output block are row block `t`; the
    four other windows are their whole arrays. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The six arrays the launch finds, as tables of extended reals. -/
abbrev qryF32 : S2048x1024.Idx → EReal := V c main_arg2
abbrev gateIn : S2048x8192.Idx → EReal := V c main_v10
abbrev whhTlo : S1024x8192.Idx → EReal := V c main_v7
abbrev whhThi : S1024x8192.Idx → EReal := V c main_v8
abbrev supArr : S512x1024.Idx → EReal := V c main_arg0
abbrev supTArr : S1024x512.Idx → EReal := V c main_v9

theorem qryRows (t : Fin cfg1.N) (p : Fin 128) (k : Fin 1024) (b : Fin 2048) (hb : b.val = t.val * 128 + p.val) :
    (iblk1 V c 0 t : FVec Ideal S128x1024 .f32) (ix2 p k) = qryF32 V c (ix2 b k) := by
  obtain ⟨e0, e1, -⟩ := blockIndex1 t
  unfold iblk1
  rw [View.read_apply]
  show qryF32 V c _ = _
  refine congrArg _ (funext fun a => Fin.ext ?_)
  match a with
  | ⟨0, _⟩ => show win1_0.index t (0 : Fin 2) * 128 + 1 * p.val = b.val; rw [e0, hb]; omega
  | ⟨1, _⟩ => show win1_0.index t (1 : Fin 2) * 1024 + 1 * k.val = k.val; rw [e1]; omega

theorem gateRows (t : Fin cfg1.N) (p : Fin 128) (n : Fin 8192) (b : Fin 2048) (hb : b.val = t.val * 128 + p.val) :
    (iblk1 V c 1 t : FVec Ideal S128x8192 .f32) (ix2 p n) = gateIn V c (ix2 b n) := by
  obtain ⟨-, -, e0, e1, -⟩ := blockIndex1 t
  unfold iblk1
  rw [View.read_apply]
  show gateIn V c _ = _
  refine congrArg _ (funext fun a => Fin.ext ?_)
  match a with
  | ⟨0, _⟩ => show win1_1.index t (0 : Fin 2) * 128 + 1 * p.val = b.val; rw [e0, hb]; omega
  | ⟨1, _⟩ => show win1_1.index t (1 : Fin 2) * 8192 + 1 * n.val = n.val; rw [e1]; omega

theorem whhTloWhole (t : Fin cfg1.N) (k : Fin 1024) (n : Fin 8192) :
    (iblk1 V c 2 t : FVec Ideal S1024x8192 .bf16) (ix2 k n) = whhTlo V c (ix2 k n) := by
  obtain ⟨-, -, -, -, e0, e1, -⟩ := blockIndex1 t
  unfold iblk1
  rw [View.read_apply]
  show whhTlo V c _ = _
  refine congrArg _ (funext fun a => Fin.ext ?_)
  match a with
  | ⟨0, _⟩ => show win1_2.index t (0 : Fin 2) * 1024 + 1 * k.val = k.val; rw [e0]; omega
  | ⟨1, _⟩ => show win1_2.index t (1 : Fin 2) * 8192 + 1 * n.val = n.val; rw [e1]; omega

theorem whhThiWhole (t : Fin cfg1.N) (k : Fin 1024) (n : Fin 8192) :
    (iblk1 V c 3 t : FVec Ideal S1024x8192 .bf16) (ix2 k n) = whhThi V c (ix2 k n) := by
  obtain ⟨-, -, -, -, -, -, e0, e1, -⟩ := blockIndex1 t
  unfold iblk1
  rw [View.read_apply]
  show whhThi V c _ = _
  refine congrArg _ (funext fun a => Fin.ext ?_)
  match a with
  | ⟨0, _⟩ => show win1_3.index t (0 : Fin 2) * 1024 + 1 * k.val = k.val; rw [e0]; omega
  | ⟨1, _⟩ => show win1_3.index t (1 : Fin 2) * 8192 + 1 * n.val = n.val; rw [e1]; omega

theorem supWhole (t : Fin cfg1.N) (j : Fin 512) (k : Fin 1024) :
    (iblk1 V c 4 t : FVec Ideal S512x1024 .f32) (ix2 j k) = supArr V c (ix2 j k) := by
  obtain ⟨-, -, -, -, -, -, -, -, e0, e1, -⟩ := blockIndex1 t
  unfold iblk1
  rw [View.read_apply]
  show supArr V c _ = _
  refine congrArg _ (funext fun a => Fin.ext ?_)
  match a with
  | ⟨0, _⟩ => show win1_4.index t (0 : Fin 2) * 512 + 1 * j.val = j.val; rw [e0]; omega
  | ⟨1, _⟩ => show win1_4.index t (1 : Fin 2) * 1024 + 1 * k.val = k.val; rw [e1]; omega

theorem supTWhole (t : Fin cfg1.N) (k : Fin 1024) (j : Fin 512) :
    (iblk1 V c 5 t : FVec Ideal S1024x512 .f32) (ix2 k j) = supTArr V c (ix2 k j) := by
  obtain ⟨-, -, -, -, -, -, -, -, -, -, e0, e1, -⟩ := blockIndex1 t
  unfold iblk1
  rw [View.read_apply]
  show supTArr V c _ = _
  refine congrArg _ (funext fun a => Fin.ext ?_)
  match a with
  | ⟨0, _⟩ => show win1_5.index t (0 : Fin 2) * 1024 + 1 * k.val = k.val; rw [e0]; omega
  | ⟨1, _⟩ => show win1_5.index t (1 : Fin 2) * 512 + 1 * j.val = j.val; rw [e1]; omega

variable (wih : Fin 8192 → Fin 1024 → EReal) (whh : Fin 8192 → Fin 2048 → EReal) (bi bh : Fin 8192 → EReal)

/-- The whole result as one function of the queries and the support set the launch finds (and of the weight tables):
    entry (b, i) is entry `i` of the result row of query row `b`. -/
def scores : S2048x512.Idx → EReal := fun i =>
  Spec.out wih whh bi bh (fun j k => supArr V c (ix2 j k))
    (fun k => qryF32 V c (ix2 (⟨(i 0).val, idx2_lt0 i⟩ : Fin 2048) k)) (⟨(i 1).val, idx2_lt1 i⟩ : Fin 512)

/-- What the launch must find for that: the product array holds every row's input part of the gates, the two weight
    arrays the two halves of `W_hh` transposed, and the last array the support set transposed. -/
structure Finds : Prop where
  gate : ∀ (b : Fin 2048) (n : Fin 8192),
    gateIn V c (ix2 b n) = (∑ k : Fin 1024, qryF32 V c (ix2 b k) * wih n k) + (bi n + bh n)
  lo : ∀ (k : Fin 1024) (n : Fin 8192), whhTlo V c (ix2 k n) = whh n (Spec.lo k)
  hi : ∀ (k : Fin 1024) (n : Fin 8192), whhThi V c (ix2 k n) = whh n (Spec.hi k)
  supT : ∀ (k : Fin 1024) (j : Fin 512), supTArr V c (ix2 k j) = supArr V c (ix2 j k)

/-- What point `t` writes back is block `t` of `scores`. -/
theorem flushedScores (hF : Finds V c wih whh bi bh) (t : Fin cfg1.N) :
    (dat1 V c).flushed 6 t = ((cfg1.win 6).blk t).view.read (Elt Ideal) (scores V c wih whh bi bh) := by
  obtain ⟨-, -, -, -, -, -, -, -, -, -, -, -, e0, e1⟩ := blockIndex1 t
  show (cfg1.win 6).cut (grid1.coords t) ((dat1 V c).after 6 t) = _
  rw [after1_6]
  funext y
  obtain ⟨p, i, rfl⟩ : ∃ (p : Fin 128) (i : Fin 512), y = ix2 p i := ⟨y 0, y 1, eq_ix2 y⟩
  have ht : t.val < 16 := lt_of_lt_of_eq t.isLt (N_1 : cfg1.N = 16)
  show out1_6 (iblk1 V c 0 t) (iblk1 V c 1 t) (iblk1 V c 2 t) (iblk1 V c 3 t) (iblk1 V c 4 t) (iblk1 V c 5 t) (ix2 p i)
    = scores V c wih whh bi bh (((cfg1.win 6).blk t).view.emb (ix2 p i))
  have r0 : ((((cfg1.win 6).blk t).view.emb (ix2 p i)) 0).val = t.val * 128 + p.val := by
    show win1_6.index t (0 : Fin 2) * 128 + 1 * p.val = _; rw [e0]; omega
  have r1 : ((((cfg1.win 6).blk t).view.emb (ix2 p i)) 1).val = i.val := by
    show win1_6.index t (1 : Fin 2) * 512 + 1 * i.val = _; rw [e1]; omega
  have hb : t.val * 128 + p.val < 2048 := by have := p.isLt; omega
  -- row `p` of the point's blocks is row `128 t + p` of the arrays
  have hq : (fun k : Fin 1024 => (iblk1 V c 0 t : FVec Ideal S128x1024 .f32) (ix2 p k))
      = fun k => qryF32 V c (ix2 (⟨t.val * 128 + p.val, hb⟩ : Fin 2048) k) :=
    funext fun k => qryRows V c t p k _ rfl
  have hS : (fun (j : Fin 512) (k : Fin 1024) => (iblk1 V c 4 t : FVec Ideal S512x1024 .f32) (ix2 j k))
      = fun j k => supArr V c (ix2 j k) := funext fun j => funext fun k => supWhole V c t j k
  rw [Cert.KernelIdeal.Stage2.out1_6_apply (iblk1 V c 0 t) (iblk1 V c 1 t) (iblk1 V c 2 t) (iblk1 V c 3 t)
    (iblk1 V c 4 t) (iblk1 V c 5 t) wih whh bi bh p i
    (fun n => by
      rw [gateRows V c t p n (⟨t.val * 128 + p.val, hb⟩ : Fin 2048) rfl, hF.gate]
      exact congrArg (· + (bi n + bh n)) (Finset.sum_congr rfl fun k _ =>
        congrArg (· * wih n k) (qryRows V c t p k _ rfl).symm))
    (fun k n => (whhTloWhole V c t k n).trans (hF.lo k n))
    (fun k n => (whhThiWhole V c t k n).trans (hF.hi k n))
    (fun k j => (supTWhole V c t k j).trans ((hF.supT k j).trans (supWhole V c t j k).symm)),
    hq, hS]
  unfold scores
  have eb : (⟨t.val * 128 + p.val, hb⟩ : Fin 2048)
      = ⟨((((cfg1.win 6).blk t).view.emb (ix2 p i)) 0).val, idx2_lt0 _⟩ := Fin.ext r0.symm
  have ei : i = ⟨((((cfg1.win 6).blk t).view.emb (ix2 p i)) 1).val, idx2_lt1 _⟩ := Fin.ext r1.symm
  rw [← eb, ← ei]

/-- An index of the result is in point `t`'s block iff each coordinate is in the block's range on its axis. -/
theorem memBlock1 (t : Fin cfg1.N) (i : S2048x512.Idx) :
    i ∈ ((cfg1.win 6).blk t).view.set ↔ ∀ a : Fin 2, win1_6.index t a * S128x512.size a ≤ (i a).val
      ∧ (i a).val < win1_6.index t a * S128x512.size a + S128x512.size a := by
  show i ∈ ((View.whole main_v11).slice (win1_6.rect t)).set ↔ _
  rw [View.set_slice_whole, Rect.mem_set_unit]
  exact Iff.rfl

/-- After the launch the result array is `scores`: the point that covers row `r` is `r / 128`. -/
theorem finalScores (hF : Finds V c wih whh bi bh) : (dat1 V c).arrAt 6 cfg1.N = scores V c wih whh bi bh :=
  (dat1 V c).arrAt_eq_of_cover 6 (scores V c wih whh bi bh) (fun t _ => flushedScores V c wih whh bi bh hF t) fun i => by
    have h0 : (i 0).val < 2048 := idx2_lt0 i
    have h1 : (i 1).val < 512 := idx2_lt1 i
    have hN : cfg1.N = 16 := N_1
    refine ⟨⟨(i 0).val / 128, by rw [hN]; omega⟩, flush1_6 _, ?_⟩
    rw [memBlock1]
    obtain ⟨-, -, -, -, -, -, -, -, -, -, -, -, e0, e1⟩ := blockIndex1 ⟨(i 0).val / 128, by rw [hN]; omega⟩
    intro a
    match a with
    | ⟨0, _⟩ =>
      show win1_6.index _ (0 : Fin 2) * 128 ≤ (i 0).val ∧ (i 0).val < win1_6.index _ (0 : Fin 2) * 128 + 128
      rw [e0]; simp only []; omega
    | ⟨1, _⟩ =>
      show win1_6.index _ (1 : Fin 2) * 512 ≤ (i 1).val ∧ (i 1).val < win1_6.index _ (1 : Fin 2) * 512 + 512
      rw [e1]; simp only []; omega

end Launch

/-! ## The program's result, as one function of its arguments -/

variable (m : (ℓ : Loc nD τ sig) → Buf (Elt Ideal) ℓ) (ρ : Dev nD → PrngReg) (c : Dev nD)

/-- The weight and bias tables of the arguments. -/
abbrev tabWih : Fin 8192 → Fin 1024 → EReal := fun n k => argWih m c (ix2 n k)
abbrev tabWhh : Fin 8192 → Fin 2048 → EReal := fun n k => argWhh m c (ix2 n k)
abbrev tabBih : Fin 8192 → EReal := fun n => argBih m c (ix1 n)
abbrev tabBhh : Fin 8192 → EReal := fun n => argBhh m c (ix1 n)

/-- THE RESULT: entry (b, i) is entry `i` of the result row of query row `b`. -/
def result : S2048x512.Idx → EReal := fun i =>
  Spec.out (tabWih m c) (tabWhh m c) (tabBih m c) (tabBhh m c) (fun j k => argSup m c (ix2 j k))
    (fun k => argQry m c (ix2 (⟨(i 0).val, idx2_lt0 i⟩ : Fin 2048) k)) (⟨(i 1).val, idx2_lt1 i⟩ : Fin 512)

/-- Neither launch nor the host stretch writes the queries or the support set, and the first launch writes none of the
    second's other inputs: at the second launch's entry they are what the stretch left. -/
theorem entry_qry : qryF32 (V2 m ρ) c = argQry m c :=
  (W2_of_ne m ρ c main_arg2 (by decide)).trans (host_qry m ρ c)
theorem entry_sup : supArr (V2 m ρ) c = argSup m c :=
  (W2_of_ne m ρ c main_arg0 (by decide)).trans (host_sup m ρ c)
theorem entry_lo : whhTlo (V2 m ρ) c = V1 m ρ c main_v7 := W2_of_ne m ρ c main_v7 (by decide)
theorem entry_hi : whhThi (V2 m ρ) c = V1 m ρ c main_v8 := W2_of_ne m ρ c main_v8 (by decide)
theorem entry_supT : supTArr (V2 m ρ) c = V1 m ρ c main_v9 := W2_of_ne m ρ c main_v9 (by decide)
/-- The product array at the second launch's entry is what the first launch left. -/
theorem entry_gate : gateIn (V2 m ρ) c = prod (V1 m ρ) c :=
  (W2_arr m ρ c 3).trans (finalProd (V1 m ρ) c)

/-- The second launch finds what it needs. -/
theorem finds : Finds (V2 m ρ) c (tabWih m c) (tabWhh m c) (tabBih m c) (tabBhh m c) where
  gate b n := by
    rw [entry_gate, entry_qry]
    unfold prod
    refine congrArg₂ (· + ·) (Finset.sum_congr rfl fun k _ => congrArg₂ (· * ·) ?_ ?_) ?_
    · exact qryBf_apply m ρ c b k
    · exact wihT_apply m ρ c k n
    · exact bias_apply m ρ c n
  lo k n := by rw [entry_lo]; exact whhT_lo_apply m ρ c k n
  hi k n := by rw [entry_hi]; exact whhT_hi_apply m ρ c k n
  supT k j := by rw [entry_supT, entry_sup]; exact supT_apply m ρ c k j

/-- The result buffer after the run is `result`. -/
theorem final_result : W3 m ρ c (Proc.devRef .tc main_v11) = result m c := by
  refine (W3_arr m ρ c 6).trans ?_
  rw [finalScores (V2 m ρ) c _ _ _ _ (finds m ρ c)]
  unfold scores result
  rw [entry_qry, entry_sup]

/-- THE RUN, READ: every weakly fair execution of the kernel program terminates, nothing faulting, with the result
    array at `result` and the arguments as launched. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (final_result m ρ c), (h c).2⟩) (run_named (F := Ideal) m ρ)

end Cert.KernelIdeal.Hand

end
-- ==== Proof.RefStep.lean ====
/-
  THE REFERENCE, ROW BY ROW: entry `(b, i)` of the reference's result is the result row of `Cert.Spec` for query row `b`.

  The reference runs the four steps on all 2048 query rows at once. Every one of its operations is pointwise, a
  product with a matrix on the right, a reduction along a row, or a re-laying of columns (a slice, a concatenation of
  `h` and `r` side by side); so row `b` of every intermediate depends on row `b` of the queries only.
-/
import proofs.«113116_j86131274154742_2_alg».proof.Proof.Gen.ReferenceIdeal.Run
import proofs.«113116_j86131274154742_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StackMember

noncomputable section

open scoped BigOperators

namespace Cert.ReferenceIdeal.RefValue

open Cert.ReferenceIdeal Cert.ReferenceIdeal.Gen Cert.ReferenceIdeal.Value Idealize.ShloMosaic Idealize.ShloMosaic.TcCoe
  Idealize.ShloMosaic.ValueIdx Idealize.SL.Sem

variable (V0 : Valuation τ sig (Elt Ideal))

/-- The argument arrays as plain tables of extended reals: the support set, a query row, the two weight matrices and
    the two biases. -/
abbrev Sup : Fin 512 → Fin 1024 → EReal := fun j k => (V0 (Proc.devRef .tc main_arg0) : FVec Ideal S512x1024 .f32) (ix2 j k)
abbrev Qry (b : Fin 2048) : Fin 1024 → EReal := fun k => (V0 (Proc.devRef .tc main_arg2) : FVec Ideal S2048x1024 .f32) (ix2 b k)
abbrev Wih : Fin 8192 → Fin 1024 → EReal := fun n k => (V0 (Proc.devRef .tc main_arg4) : FVec Ideal S8192x1024 .f32) (ix2 n k)
abbrev Whh : Fin 8192 → Fin 2048 → EReal := fun n k => (V0 (Proc.devRef .tc main_arg5) : FVec Ideal S8192x2048 .f32) (ix2 n k)
abbrev Bih : Fin 8192 → EReal := fun n => (V0 (Proc.devRef .tc main_arg6) : FVec Ideal S8192 .f32) (ix1 n)
abbrev Bhh : Fin 8192 → EReal := fun n => (V0 (Proc.devRef .tc main_arg7) : FVec Ideal S8192 .f32) (ix1 n)

/-! ## The reference's stages as functions of whole arrays

Each definition below is one stretch of the reference's text with its operands as parameters: the gate pre-activations,
the cell state, the attention query, the scores, the exponentials, the read-out, and `h` and `r` laid side by side. -/

/-- The array whose every entry is the word of `1.0`, and the one whose every entry is the word of `0.0`. -/
def ones : FVec Ideal S2048x2048 .f32 :=
  broadcastInDim S2048x2048 ![] bcast_S_S2048x2048 (constant (F := Ideal) S_ .f32 0x3F800000#32)
def zeros : FVec Ideal S2048x2048 .f32 :=
  broadcastInDim S2048x2048 ![] bcast_S_S2048x2048 (constant (F := Ideal) S_ .f32 0x00000000#32)

/-- The logistic function as the reference spells it: `1 / (1 + exp (-v))`. -/
def rSig (v : FVec Ideal S2048x2048 .f32) : FVec Ideal S2048x2048 .f32 :=
  Host.divf ones (addf ones (Host.exp (Host.negf v)))

/-- The gate pre-activations: `((x · W_ihᵀ + hr · W_hhᵀ) + b_ih) + b_hh`. -/
def rGates (a2 : FVec Ideal S2048x1024 .f32) (a4 : FVec Ideal S8192x1024 .f32) (a5 : FVec Ideal S8192x2048 .f32)
    (a6 a7 : FVec Ideal S8192 .f32) (hr : FVec Ideal S2048x2048 .f32) : FVec Ideal S2048x8192 .f32 :=
  addf (addf (addf (Host.dotGeneral dot_S2048x1024_S1024x8192_S2048x8192_1_0_0_1_n_n none a2 (transpose S1024x8192 [1, 0] a4 transposes_S8192x1024_S1024x8192_1_0)) (Host.dotGeneral dot_S2048x2048_S2048x8192_S2048x8192_1_0_0_1_n_n none hr (transpose S2048x8192 [1, 0] a5 transposes_S8192x2048_S2048x8192_1_0))) (broadcastInDim S2048x8192 ![0, 1] bcast_S1x8192_S2048x8192_0_1 (broadcastInDim S1x8192 ![1] bcast_S8192_S1x8192_1 a6))) (broadcastInDim S2048x8192 ![0, 1] bcast_S1x8192_S2048x8192_0_1 (broadcastInDim S1x8192 ![1] bcast_S8192_S1x8192_1 a7))

/-- The new cell state: `σ(forget) · c + σ(input) · tanh(candidate)`. -/
def rCell (g : FVec Ideal S2048x8192 .f32) (c : FVec Ideal S2048x2048 .f32) : FVec Ideal S2048x2048 .f32 :=
  addf (mulf (rSig (extractStridedSlice S2048x2048 ![0, 2048] g slices_S2048x8192_S2048x2048_0_2048)) c) (mulf (rSig (extractStridedSlice S2048x2048 ![0, 0] g slices_S2048x8192_S2048x2048_0_0)) (Host.tanh (extractStridedSlice S2048x2048 ![0, 4096] g slices_S2048x8192_S2048x2048_0_4096)))

/-- The new attention query: the queries plus the first 1024 columns of `σ(output) · tanh(c')`. -/
def rHid (a2 : FVec Ideal S2048x1024 .f32) (g : FVec Ideal S2048x8192 .f32) (c : FVec Ideal S2048x2048 .f32) :
    FVec Ideal S2048x1024 .f32 :=
  addf a2 (extractStridedSlice S2048x1024 ![0, 0] (mulf (rSig (extractStridedSlice S2048x2048 ![0, 6144] g slices_S2048x8192_S2048x2048_0_6144)) (Host.tanh c)) slices_S2048x2048_S2048x1024_0_0)

/-- The scores: the query times the support set transposed. -/
def rScore (h : FVec Ideal S2048x1024 .f32) (a0 : FVec Ideal S512x1024 .f32) : FVec Ideal S2048x512 .f32 :=
  Host.dotGeneral dot_S2048x1024_S1024x512_S2048x512_1_0_0_1_n_n none h (transpose S1024x512 [1, 0] a0 transposes_S512x1024_S1024x512_1_0)

/-- The exponentials of the scores less each row's maximum. -/
def rExp (s : FVec Ideal S2048x512 .f32) : FVec Ideal S2048x512 .f32 :=
  Host.exp (subf s (broadcastInDim S2048x512 ![0, 1] bcast_S2048x1_S2048x512_0_1 (broadcastInDim S2048x1 ![0] bcast_S2048_S2048x1_0 (maximumf (broadcastInDim S2048 ![] bcast_S_S2048 (constant (F := Ideal) S_ .f32 0xFF800000#32)) (Host.reduce FloatOps.maximumf s (constant (F := Ideal) S_ .f32 0xFF800000#32) reducesTo_S2048x512_S2048_d1 h_S_)))))

/-- The read-out: the exponentials over each row's sum, times the support set. -/
def rAttn (e : FVec Ideal S2048x512 .f32) (a0 : FVec Ideal S512x1024 .f32) : FVec Ideal S2048x1024 .f32 :=
  Host.dotGeneral dot_S2048x512_S512x1024_S2048x1024_1_0_0_1_n_n none (Host.divf e (broadcastInDim S2048x512 ![0, 1] bcast_S2048x1_S2048x512_0_1 (broadcastInDim S2048x1 ![0] bcast_S2048_S2048x1_0 (Host.reduceAdd e (constant (F := Ideal) S_ .f32 0x00000000#32) reducesTo_S2048x512_S2048_d1 h_S_)))) a0

/-- `h` and `r` side by side. -/
def rCat (h r : FVec Ideal S2048x1024 .f32) : FVec Ideal S2048x2048 .f32 :=
  concatenate S2048x2048 1 [⟨S2048x1024, h⟩, ⟨S2048x1024, r⟩] concatenates_S2048x1024_S2048x1024_S2048x2048_d1

/-- The argument arrays. -/
abbrev A0 : FVec Ideal S512x1024 .f32 := V0 (Proc.devRef .tc main_arg0)
abbrev A2 : FVec Ideal S2048x1024 .f32 := V0 (Proc.devRef .tc main_arg2)
abbrev A4 : FVec Ideal S8192x1024 .f32 := V0 (Proc.devRef .tc main_arg4)
abbrev A5 : FVec Ideal S8192x2048 .f32 := V0 (Proc.devRef .tc main_arg5)
abbrev A6 : FVec Ideal S8192 .f32 := V0 (Proc.devRef .tc main_arg6)
abbrev A7 : FVec Ideal S8192 .f32 := V0 (Proc.devRef .tc main_arg7)

/-- One step on whole arrays, from the side-by-side recurrent input `hr` and the cell state `c`. -/
abbrev G (hr : FVec Ideal S2048x2048 .f32) : FVec Ideal S2048x8192 .f32 := rGates (A2 V0) (A4 V0) (A5 V0) (A6 V0) (A7 V0) hr

/-! ## The generated run's named terms are these stages, composed -/

theorem v12_eq : (res_main_v12 V0 : FVec Ideal S2048x8192 .f32) = G V0 zeros := by
  unfold res_main_v12; rfl
theorem v32_eq : (res_main_v32 V0 : FVec Ideal S2048x2048 .f32) = rCell (res_main_v12 V0) zeros := by
  unfold res_main_v32; rfl
theorem v42_eq : (res_main_v42 V0 : FVec Ideal S2048x1024 .f32) = rHid (A2 V0) (res_main_v12 V0) (res_main_v32 V0) := by
  unfold res_main_v42; rfl
theorem v44_eq : (res_main_v44 V0 : FVec Ideal S2048x512 .f32) = rScore (res_main_v42 V0) (A0 V0) := by
  unfold res_main_v44; rfl
theorem v51_eq : (res_main_v51 V0 : FVec Ideal S2048x512 .f32) = rExp (res_main_v44 V0) := by
  unfold res_main_v51; rfl
theorem v68_eq : (res_main_v68 V0 : FVec Ideal S2048x8192 .f32)
    = G V0 (rCat (res_main_v42 V0) (rAttn (res_main_v51 V0) (A0 V0))) := by
  unfold res_main_v68; rfl
theorem v88_eq : (res_main_v88 V0 : FVec Ideal S2048x2048 .f32) = rCell (res_main_v68 V0) (res_main_v32 V0) := by
  unfold res_main_v88; rfl
theorem v98_eq : (res_main_v98 V0 : FVec Ideal S2048x1024 .f32) = rHid (A2 V0) (res_main_v68 V0) (res_main_v88 V0) := by
  unfold res_main_v98; rfl
theorem v100_eq : (res_main_v100 V0 : FVec Ideal S2048x512 .f32) = rScore (res_main_v98 V0) (A0 V0) := by
  unfold res_main_v100; rfl
theorem v107_eq : (res_main_v107 V0 : FVec Ideal S2048x512 .f32) = rExp (res_main_v100 V0) := by
  unfold res_main_v107; rfl
theorem v124_eq : (res_main_v124 V0 : FVec Ideal S2048x8192 .f32)
    = G V0 (rCat (res_main_v98 V0) (rAttn (res_main_v107 V0) (A0 V0))) := by
  unfold res_main_v124; rfl
theorem v144_eq : (res_main_v144 V0 : FVec Ideal S2048x2048 .f32) = rCell (res_main_v124 V0) (res_main_v88 V0) := by
  unfold res_main_v144; rfl
theorem v154_eq : (res_main_v154 V0 : FVec Ideal S2048x1024 .f32) = rHid (A2 V0) (res_main_v124 V0) (res_main_v144 V0) := by
  unfold res_main_v154; rfl
theorem v156_eq : (res_main_v156 V0 : FVec Ideal S2048x512 .f32) = rScore (res_main_v154 V0) (A0 V0) := by
  unfold res_main_v156; rfl
theorem v163_eq : (res_main_v163 V0 : FVec Ideal S2048x512 .f32) = rExp (res_main_v156 V0) := by
  unfold res_main_v163; rfl
theorem v180_eq : (res_main_v180 V0 : FVec Ideal S2048x8192 .f32)
    = G V0 (rCat (res_main_v154 V0) (rAttn (res_main_v163 V0) (A0 V0))) := by
  unfold res_main_v180; rfl
theorem v210_eq : (res_main_v210 V0 : FVec Ideal S2048x1024 .f32)
    = rHid (A2 V0) (res_main_v180 V0) (rCell (res_main_v180 V0) (res_main_v144 V0)) := by
  unfold res_main_v210; rfl

/-! ## Each stage read at an entry of row `b`

Row `b` of a stage's result is the corresponding function of `Cert.Spec` applied to row `b` of its operands. -/

/-- A plain product `[m, k] × [k, n]` read at an entry: the sum over the contracted coordinate. -/
theorem dot_apply {m k n : Nat} (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    (Host.dotGeneral d none A B : FVec Ideal ⟨2, ![m, n]⟩ .f32) (ix2 a b) = ∑ c : Fin k, A (ix2 a c) * B (ix2 c b) := by
  subst hd; exact StackMember.dotGeneral_plain_apply none A B a b

/-- The host's `tanh` and `exp` read at an index. -/
theorem hostTanh_apply {s : Shape} (x : FVec Ideal s .f32) (i : s.Idx) : Host.tanh x i = Ideal.tanh (x i) := rfl
theorem hostExp_apply {s : Shape} (x : FVec Ideal s .f32) (i : s.Idx) : Host.exp x i = Ideal.exp (x i) := rfl

theorem ones_apply (j : S2048x2048.Idx) : ones j = (1 : EReal) :=
  (broadcastInDim_scalar_apply _ _ j).trans Ideal.ofBits_one_f32
theorem zeros_apply (j : S2048x2048.Idx) : zeros j = Spec.zero :=
  broadcastInDim_scalar_apply _ _ j

/-- The reference's expanded logistic function is the logistic function. -/
theorem rSig_apply (v : FVec Ideal S2048x2048 .f32) (j : S2048x2048.Idx) : rSig v j = Ideal.logistic (v j) := by
  show FloatOps.hostDivf (ones j) (FloatOps.addf (ones j) (FloatOps.hostUnary .exp (FloatOps.hostNegf (v j)))) = _
  rw [ones_apply]
  rfl

/-- Columns `2048 q …` of the pre-activations are gate `q`. -/
theorem gslice_apply (o : Nat) (q : Fin 4) (ho : o = 2048 * q.val) (g : FVec Ideal S2048x8192 .f32)
    (h : S2048x8192.Slices ![0, o] S2048x2048) (b j : Fin 2048) :
    extractStridedSlice S2048x2048 ![0, o] g h (ix2 b j) = g (ix2 b (Spec.gateIx q j)) :=
  slice2_axis1_apply o g h b j (Spec.gateIx q j) (by rw [Spec.gateIx_val, ho])

/-- A vector of 8192 laid along the columns of every row. -/
theorem bias_apply (a : FVec Ideal S8192 .f32) (b : Fin 2048) (n : Fin 8192) :
    broadcastInDim S2048x8192 ![0, 1] bcast_S1x8192_S2048x8192_0_1 (broadcastInDim S1x8192 ![1] bcast_S8192_S1x8192_1 a) (ix2 b n)
      = a (ix1 n) := by
  refine (broadcastInDim_apply _ _ _ (ix2 b n) (ix2 (0 : Fin 1) n) ?_).trans ?_
  · intro ax
    match ax with
    | ⟨0, _⟩ => rfl
    | ⟨1, _⟩ => rfl
  · exact broadcastInDim_apply _ _ _ (ix2 (0 : Fin 1) n) (ix1 n) (fun ax => match ax with | ⟨0, _⟩ => rfl)

/-- A vector of 2048 laid down the rows of every column. -/
theorem rowBcast_apply (v : FVec Ideal S2048 .f32) (b : Fin 2048) (i : Fin 512) :
    broadcastInDim S2048x512 ![0, 1] bcast_S2048x1_S2048x512_0_1 (broadcastInDim S2048x1 ![0] bcast_S2048_S2048x1_0 v) (ix2 b i)
      = v (ix1 b) := by
  refine (broadcastInDim_apply _ _ _ (ix2 b i) (ix2 b (0 : Fin 1)) ?_).trans ?_
  · intro ax
    match ax with
    | ⟨0, _⟩ => rfl
    | ⟨1, _⟩ => rfl
  · exact broadcastInDim_apply _ _ _ (ix2 b (0 : Fin 1)) (ix1 b) (fun ax => match ax with | ⟨0, _⟩ => rfl)

theorem rGates_apply (a2 : FVec Ideal S2048x1024 .f32) (a4 : FVec Ideal S8192x1024 .f32) (a5 : FVec Ideal S8192x2048 .f32)
    (a6 a7 : FVec Ideal S8192 .f32) (hr : FVec Ideal S2048x2048 .f32) (b : Fin 2048) (n : Fin 8192) :
    rGates a2 a4 a5 a6 a7 hr (ix2 b n)
      = Spec.gates (fun n k => a4 (ix2 n k)) (fun n k => a5 (ix2 n k)) (fun n => a6 (ix1 n)) (fun n => a7 (ix1 n))
          (fun k => a2 (ix2 b k)) (fun k => hr (ix2 b (Spec.lo k))) (fun k => hr (ix2 b (Spec.hi k))) n := by
  unfold rGates Spec.gates
  rw [addf_apply, addf_apply, addf_apply, dot_apply dot_S2048x1024_S1024x8192_S2048x8192_1_0_0_1_n_n rfl,
    dot_apply dot_S2048x2048_S2048x8192_S2048x8192_1_0_0_1_n_n rfl, Spec.sum_halves, bias_apply, bias_apply]
  have e4 : ∀ k : Fin 1024, transpose S1024x8192 [1, 0] a4 transposes_S8192x1024_S1024x8192_1_0 (ix2 k n) = a4 (ix2 n k) :=
    fun k => transpose_ix2_apply a4 _ k n
  have e5 : ∀ k : Fin 2048, transpose S2048x8192 [1, 0] a5 transposes_S8192x2048_S2048x8192_1_0 (ix2 k n) = a5 (ix2 n k) :=
    fun k => transpose_ix2_apply a5 _ k n
  simp only [e4, e5]

theorem rCell_apply (g : FVec Ideal S2048x8192 .f32) (c : FVec Ideal S2048x2048 .f32) (b j : Fin 2048) :
    rCell g c (ix2 b j) = Spec.cell (fun n => g (ix2 b n)) (fun k => c (ix2 b k)) j := by
  unfold rCell Spec.cell
  rw [addf_apply, mulf_apply, mulf_apply, rSig_apply, rSig_apply, hostTanh_apply,
    gslice_apply 2048 1 rfl, gslice_apply 0 0 rfl, gslice_apply 4096 2 rfl]

theorem rHid_apply (a2 : FVec Ideal S2048x1024 .f32) (g : FVec Ideal S2048x8192 .f32) (c : FVec Ideal S2048x2048 .f32)
    (b : Fin 2048) (k : Fin 1024) :
    rHid a2 g c (ix2 b k) = Spec.hid (fun k => a2 (ix2 b k)) (fun n => g (ix2 b n)) (fun j => c (ix2 b j)) k := by
  unfold rHid Spec.hid
  rw [addf_apply, slice2_axis1_apply 0 _ _ b k (Spec.lo k) (by rw [Spec.lo_val, Nat.zero_add]), mulf_apply, rSig_apply,
    hostTanh_apply, gslice_apply 6144 3 rfl]

theorem rScore_apply (h : FVec Ideal S2048x1024 .f32) (a0 : FVec Ideal S512x1024 .f32) (b : Fin 2048) (i : Fin 512) :
    rScore h a0 (ix2 b i) = Spec.score (fun i k => a0 (ix2 i k)) (fun k => h (ix2 b k)) i := by
  unfold rScore Spec.score
  rw [dot_apply dot_S2048x1024_S1024x512_S2048x512_1_0_0_1_n_n rfl]
  exact Finset.sum_congr rfl fun k _ => congrArg (h (ix2 b k) * ·) (transpose_ix2_apply a0 _ k i)

/-- The position over `(b)` with `k` put on the reduced axis is `(b, k)`. -/
theorem lift_row (hR : S2048x512.Reduces [1] S2048) (b : Fin 2048) (k : Fin 512) : hR.lift (ix1 b) k = ix2 b k :=
  funext fun ax => Fin.ext (match ax with | ⟨0, _⟩ => rfl | ⟨1, _⟩ => rfl)

/-- A row's maximum as the reference takes it. -/
theorem rowMax_apply (s : FVec Ideal S2048x512 .f32) (b : Fin 2048) :
    maximumf (broadcastInDim S2048 ![] bcast_S_S2048 (constant (F := Ideal) S_ .f32 0xFF800000#32))
        (Host.reduce FloatOps.maximumf s (constant (F := Ideal) S_ .f32 0xFF800000#32) reducesTo_S2048x512_S2048_d1 h_S_) (ix1 b)
      = Spec.rowMax (fun i => s (ix2 b i)) := by
  have hR : S2048x512.Reduces [1] S2048 := by decide
  rw [maximumf_apply, broadcastInDim_scalar_apply, Host.reduce_eq_fold_single _ _ _ _ hR]
  have hl : (s ∘ hR.lift (ix1 b)) = fun i : Fin 512 => s (ix2 b i) := funext fun k => congrArg s (lift_row hR b k)
  rw [hl]
  rfl

/-- A row's sum as the reference takes it: from the zero word. -/
theorem rowSum_apply (e : FVec Ideal S2048x512 .f32) (b : Fin 2048) :
    Host.reduceAdd e (constant (F := Ideal) S_ .f32 0x00000000#32) reducesTo_S2048x512_S2048_d1 h_S_ (ix1 b)
      = ∑ i : Fin 512, e (ix2 b i) := by
  have hR : S2048x512.Reduces [1] S2048 := by decide
  rw [hostReduceAdd_apply, Ideal.hostReduceAdd_single _ hR]
  refine (congrArg (· + _) Ideal.ofBits_zero_f32).trans ((zero_add _).trans ?_)
  exact Finset.sum_congr rfl fun k _ => congrArg e (lift_row hR b k)

theorem rExp_apply (s : FVec Ideal S2048x512 .f32) (b : Fin 2048) (i : Fin 512) :
    rExp s (ix2 b i) = Spec.expo (fun i => s (ix2 b i)) i := by
  unfold rExp Spec.expo
  rw [hostExp_apply, subf_apply, rowBcast_apply, rowMax_apply]

theorem rAttn_apply (e : FVec Ideal S2048x512 .f32) (a0 : FVec Ideal S512x1024 .f32) (b : Fin 2048) (d : Fin 1024) :
    rAttn e a0 (ix2 b d) = Spec.attn (fun i k => a0 (ix2 i k)) (fun i => e (ix2 b i)) d := by
  unfold rAttn Spec.attn
  rw [dot_apply dot_S2048x512_S512x1024_S2048x1024_1_0_0_1_n_n rfl]
  refine Finset.sum_congr rfl fun i _ => ?_
  rw [hostDivf_apply, rowBcast_apply, rowSum_apply]

/-- Side by side: column `k` reads `h`, column `1024 + k` reads `r`. -/
theorem rCat_lo (h r : FVec Ideal S2048x1024 .f32) (b : Fin 2048) (k : Fin 1024) :
    rCat h r (ix2 b (Spec.lo k)) = h (ix2 b k) := by
  unfold rCat
  exact concatenate_pair_apply_left 1 h r _ (ix2 b (Spec.lo k)) rfl (ix2 b k)
    (fun ax => match ax with | ⟨0, _⟩ => rfl | ⟨1, _⟩ => rfl)
theorem rCat_hi (h r : FVec Ideal S2048x1024 .f32) (b : Fin 2048) (k : Fin 1024) :
    rCat h r (ix2 b (Spec.hi k)) = r (ix2 b k) := by
  unfold rCat
  exact concatenate_pair_apply_right 1 h r _ (ix2 b (Spec.hi k)) rfl rfl (ix2 b k)
    (fun ax hne => match ax, hne with | ⟨0, _⟩, _ => rfl | ⟨1, _⟩, hne => absurd rfl hne)
    (by show k.val + 1024 = 1024 + k.val; omega)

/-! ## One step, and the four steps -/

/-- Row `b` of a side-by-side recurrent input `hr` and of a cell state `c` is the state `σ`. -/
def RowIs (b : Fin 2048) (hr c : FVec Ideal S2048x2048 .f32) (σ : Spec.State) : Prop :=
  (∀ k, hr (ix2 b (Spec.lo k)) = σ.h k) ∧ (∀ k, hr (ix2 b (Spec.hi k)) = σ.r k) ∧ (∀ j, c (ix2 b j) = σ.c j)

/-- One step of `Cert.Spec` on query row `b`. -/
abbrev NX (b : Fin 2048) : Spec.State → Spec.State :=
  Spec.next (Wih V0) (Whh V0) (Bih V0) (Bhh V0) (Sup V0) (Qry V0 b)

/-- One step of the reference on whole arrays is, on row `b`, one step of `Cert.Spec`. -/
theorem step (b : Fin 2048) (hr c : FVec Ideal S2048x2048 .f32) (σ : Spec.State) (H : RowIs b hr c σ)
    (g : FVec Ideal S2048x8192 .f32) (hg : g = G V0 hr)
    (c' : FVec Ideal S2048x2048 .f32) (hc : c' = rCell g c)
    (h' : FVec Ideal S2048x1024 .f32) (hh : h' = rHid (A2 V0) g c')
    (s : FVec Ideal S2048x512 .f32) (hs : s = rScore h' (A0 V0))
    (e : FVec Ideal S2048x512 .f32) (he : e = rExp s) :
    RowIs b (rCat h' (rAttn e (A0 V0))) c' (NX V0 b σ) ∧ ∀ k, h' (ix2 b k) = (NX V0 b σ).h k := by
  obtain ⟨Hh, Hr, Hc⟩ := H
  have Eg : (fun n => g (ix2 b n)) = Spec.gates (Wih V0) (Whh V0) (Bih V0) (Bhh V0) (Qry V0 b) σ.h σ.r := by
    funext n
    rw [hg]
    refine (rGates_apply _ _ _ _ _ hr b n).trans ?_
    rw [show (fun k => hr (ix2 b (Spec.lo k))) = σ.h from funext Hh,
      show (fun k => hr (ix2 b (Spec.hi k))) = σ.r from funext Hr]
  have Ec : (fun j => c' (ix2 b j)) = (NX V0 b σ).c := by
    funext j
    rw [hc, rCell_apply, Eg, show (fun k => c (ix2 b k)) = σ.c from funext Hc]
    all_goals rfl
  have Eh : (fun k => h' (ix2 b k)) = (NX V0 b σ).h := by
    funext k
    rw [hh, rHid_apply, Eg, Ec]
    all_goals rfl
  have Es : (fun i => s (ix2 b i)) = Spec.score (Sup V0) (NX V0 b σ).h := by
    funext i
    rw [hs, rScore_apply, Eh]
  have Ee : (fun i => e (ix2 b i)) = Spec.expo (Spec.score (Sup V0) (NX V0 b σ).h) := by
    funext i
    rw [he, rExp_apply, Es]
  have Er : ∀ d, rAttn e (A0 V0) (ix2 b d) = (NX V0 b σ).r d := fun d => by
    rw [rAttn_apply, Ee]
    all_goals rfl
  exact ⟨⟨fun k => (rCat_lo _ _ b k).trans (congrFun Eh k), fun k => (rCat_hi _ _ b k).trans (Er k), congrFun Ec⟩,
    congrFun Eh⟩

/-- Entry `(b, i)` of the reference's result (the generated run's term) is entry `i` of the result row for query row `b`. -/
theorem ref_out_apply (b : Fin 2048) (i : Fin 512) :
    (Host.dotGeneral (φ₁ := .f32) (φ₂ := .f32) dot_S2048x1024_S1024x512_S2048x512_1_0_0_1_n_n none (res_main_v210 V0)
        (transpose S1024x512 [1, 0] (V0 (Proc.devRef .tc main_arg0)) transposes_S512x1024_S1024x512_1_0)
          : FVec Ideal S2048x512 .f32) (ix2 b i)
      = Spec.out (Wih V0) (Whh V0) (Bih V0) (Bhh V0) (Sup V0) (Qry V0 b) i := by
  have H0 : RowIs b zeros zeros Spec.init :=
    ⟨fun k => zeros_apply _, fun k => zeros_apply _, fun j => zeros_apply _⟩
  obtain ⟨H1, -⟩ := step V0 b zeros zeros Spec.init H0 (res_main_v12 V0) (v12_eq V0) (res_main_v32 V0) (v32_eq V0)
    (res_main_v42 V0) (v42_eq V0) (res_main_v44 V0) (v44_eq V0) (res_main_v51 V0) (v51_eq V0)
  obtain ⟨H2, -⟩ := step V0 b _ _ _ H1 (res_main_v68 V0) (v68_eq V0) (res_main_v88 V0) (v88_eq V0)
    (res_main_v98 V0) (v98_eq V0) (res_main_v100 V0) (v100_eq V0) (res_main_v107 V0) (v107_eq V0)
  obtain ⟨H3, -⟩ := step V0 b _ _ _ H2 (res_main_v124 V0) (v124_eq V0) (res_main_v144 V0) (v144_eq V0)
    (res_main_v154 V0) (v154_eq V0) (res_main_v156 V0) (v156_eq V0) (res_main_v163 V0) (v163_eq V0)
  obtain ⟨-, E4⟩ := step V0 b _ _ _ H3 (res_main_v180 V0) (v180_eq V0) _ rfl (res_main_v210 V0) (v210_eq V0) _ rfl _ rfl
  refine (rScore_apply (res_main_v210 V0) (A0 V0) b i).trans ?_
  rw [show (fun k => (res_main_v210 V0 : FVec Ideal S2048x1024 .f32) (ix2 b k)) = _ from funext E4]
  all_goals rfl

end Cert.ReferenceIdeal.RefValue

end
-- ==== Proof.lean ====
/-
  A MATCHING NETWORK'S FOUR READ STEPS: a two-kernel program against its plain reference, over the extended reals.

  Both programs take a support set `S` (512 rows), queries (2048 rows), the weights `W_ih`, `W_hh` and biases of one LSTM
  cell, and return for every query row the scores of its fourth attention query against the support rows. Each query
  row goes through the four steps by itself (Proof/Spec.lean says what a step is); the two programs differ only in how
  they arrange that work:

    • the reference recomputes `x · W_ihᵀ` in every step and adds the two biases one after the other; the kernels compute
      `x · W_ihᵀ + (b_ih + b_hh)` once (first kernel) and add to it the recurrent part — a regrouping of a sum of five
      terms, which holds on the extended reals because their addition commutes and associates;
    • the reference multiplies the side-by-side pair `(h, r)` with `W_hhᵀ`; the second kernel multiplies `h` with the first
      1024 rows of `W_hhᵀ` and `r` with the last 1024 and adds the two — a sum over 2048 positions as the sum over its halves;
    • the reference spells the logistic function `1 / (1 + e^(-t))` out in four operations, the kernel has it as one, and
      at the extended reals that one operation IS the expression;
    • the kernel changes the float format of some operands, which is the identity on extended reals, works on blocks of
      128 rows where the reference works on all 2048, and returns the fourth step's scores where the reference computes
      them once more.

  No step of the argument needs a finite value, so the precondition is never opened. The idealized kernel program is
  the kernel program's own text read at the extended reals (the idealization rewrote nothing), so that claim is trivial.

  Proof/KernelScores.lean ends with the kernel program's run (its result array is `result`, entry (b, i) the result row
  of query row `b` at `i`); Proof/RefStep.lean reads the reference's run at an entry as the same row.
-/
import proofs.«113116_j86131274154742_2_alg».proof.Defs
import proofs.«113116_j86131274154742_2_alg».proof.Proof.Gen.Kernel
import proofs.«113116_j86131274154742_2_alg».proof.Proof.Gen.Kernel.Frame
import proofs.«113116_j86131274154742_2_alg».proof.Proof.Gen.KernelIdeal
import proofs.«113116_j86131274154742_2_alg».proof.Proof.Gen.KernelIdeal.Frame
import proofs.«113116_j86131274154742_2_alg».proof.Proof.Gen.ReferenceIdeal
import proofs.«113116_j86131274154742_2_alg».proof.Proof.Gen.Pre_finite_inputs
import proofs.«113116_j86131274154742_2_alg».proof.Proof.Gen.ReferenceIdeal.Run
import proofs.«113116_j86131274154742_2_alg».proof.Proof.KernelScores
import proofs.«113116_j86131274154742_2_alg».proof.Proof.RefStep
import Idealize.ShloMosaic.Adequacy
import Idealize.ShloMosaic.Init

noncomputable section

namespace Cert.Proof

open Idealize.ShloMosaic Idealize.SL.Sem Idealize.ShloMosaic.ValueIdx

/-- The kernel program as printed runs, nothing faulting, its arguments unchanged: the generated frame. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and both result arrays hold, at (b, i), entry `i` of the
    result row of query row `b`: the kernel program's by its two launches read block by block, the reference's by its
    operations read entry by entry; the two rows are built from tables that the agreement makes equal. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, -, a4, a5, a6, a7⟩ := hagree c
  funext i
  obtain ⟨b, j, rfl⟩ : ∃ (b : Fin 2048) (j : Fin 512), i = ix2 b j := ⟨i 0, i 1, eq_ix2 i⟩
  refine (Cert.ReferenceIdeal.RefValue.ref_out_apply (StableHlo.launchContents m' c) b j).trans ?_
  -- the reference's tables are the kernel program's, by the agreement on the arguments
  have eS : Cert.ReferenceIdeal.RefValue.Sup (StableHlo.launchContents m' c)
      = fun j k => Cert.KernelIdeal.Hand.argSup m c (ix2 j k) := by
    funext j k; exact congrArg (fun f : Cert.ReferenceIdeal.S512x1024.Idx → EReal => f (ix2 j k)) a0
  have eQ : Cert.ReferenceIdeal.RefValue.Qry (StableHlo.launchContents m' c) b
      = fun k => Cert.KernelIdeal.Hand.argQry m c (ix2 b k) := by
    funext k; exact congrArg (fun f : Cert.ReferenceIdeal.S2048x1024.Idx → EReal => f (ix2 b k)) a2
  have eWi : Cert.ReferenceIdeal.RefValue.Wih (StableHlo.launchContents m' c) = Cert.KernelIdeal.Hand.tabWih m c := by
    funext n k; exact congrArg (fun f : Cert.ReferenceIdeal.S8192x1024.Idx → EReal => f (ix2 n k)) a4
  have eWh : Cert.ReferenceIdeal.RefValue.Whh (StableHlo.launchContents m' c) = Cert.KernelIdeal.Hand.tabWhh m c := by
    funext n k; exact congrArg (fun f : Cert.ReferenceIdeal.S8192x2048.Idx → EReal => f (ix2 n k)) a5
  have eBi : Cert.ReferenceIdeal.RefValue.Bih (StableHlo.launchContents m' c) = Cert.KernelIdeal.Hand.tabBih m c := by
    funext n; exact congrArg (fun f : Cert.ReferenceIdeal.S8192.Idx → EReal => f (ix1 n)) a6
  have eBh : Cert.ReferenceIdeal.RefValue.Bhh (StableHlo.launchContents m' c) = Cert.KernelIdeal.Hand.tabBhh m c := by
    funext n; exact congrArg (fun f : Cert.ReferenceIdeal.S8192.Idx → EReal => f (ix1 n)) a7
  rw [eS, eQ, eWi, eWh, eBi, eBh]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
